-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000000 : Shape := ⟨2, ![1, 2000000]⟩
abbrev S8000000x2 : Shape := ⟨2, ![8000000, 2]⟩
abbrev S6000000x3 : Shape := ⟨2, ![6000000, 3]⟩
abbrev S4000000x4 : Shape := ⟨2, ![4000000, 4]⟩
abbrev S_ : Shape := ⟨0, ![]⟩

class Facts : Prop where
  bcast_S_S1x2000000 : S_.BroadcastsInDim S1x2000000 (![] : Fin 0 → Fin S1x2000000.rank)
  reducesTo_S1x2000000_S_d0_1 : S1x2000000.ReducesTo [0, 1] S_
  h_S_ : 0 < S_.numel

variable [Facts]

def fn {F : FTy → Type} [FloatOps F] (main_arg0 : FVec F S1x2000000 .f32) (main_arg1 : IVec S8000000x2 32) (main_arg2 : IVec S6000000x3 32) (main_arg3 : IVec S4000000x4 32) : IVec S_ 1 :=
  let main_v0 : FVec F S1x2000000 .f32 := Host.absf main_arg0
  let main_cst : FVec F S_ .f32 := constant S_ .f32 0x7F800000#32
  let main_v1 : FVec F S1x2000000 .f32 := broadcastInDim S1x2000000 ![] bcast_S_S1x2000000 main_cst
  let main_v2 : IVec S1x2000000 1 := cmpf .olt main_v0 main_v1
  let main_c : IVec S_ 1 := constantI S_ 1 1#1
  let main_v3 : IVec S_ 1 := (fun x v => Host.reduce IntOp.andi x v reducesTo_S1x2000000_S_d0_1 h_S_) main_v2 main_c
  main_v3
-- ==== Kernel.lean ====
abbrev S1x2000000 : Shape := ⟨2, ![1, 2000000]⟩
abbrev S8000000x2 : Shape := ⟨2, ![8000000, 2]⟩
abbrev S6000000x3 : Shape := ⟨2, ![6000000, 3]⟩
abbrev S4000000x4 : Shape := ⟨2, ![4000000, 4]⟩
abbrev S2 : Shape := ⟨1, ![2]⟩
abbrev S3 : Shape := ⟨1, ![3]⟩
abbrev S4 : Shape := ⟨1, ![4]⟩
abbrev S2000000 : Shape := ⟨1, ![2000000]⟩
abbrev S2x8000000 : Shape := ⟨2, ![2, 8000000]⟩
abbrev S_ : Shape := ⟨0, ![]⟩
abbrev S2x8000000x1 : Shape := ⟨3, ![2, 8000000, 1]⟩
abbrev S2x1 : Shape := ⟨2, ![2, 1]⟩
abbrev S1x8000000 : Shape := ⟨2, ![1, 8000000]⟩
abbrev S2x320000 : Shape := ⟨2, ![2, 320000]⟩
abbrev S1x320000 : Shape := ⟨2, ![1, 320000]⟩
abbrev S320000 : Shape := ⟨1, ![320000]⟩
abbrev S3x6000000 : Shape := ⟨2, ![3, 6000000]⟩
abbrev S3x6000000x1 : Shape := ⟨3, ![3, 6000000, 1]⟩
abbrev S3x1 : Shape := ⟨2, ![3, 1]⟩
abbrev S1x6000000 : Shape := ⟨2, ![1, 6000000]⟩
abbrev S3x240000 : Shape := ⟨2, ![3, 240000]⟩
abbrev S1x240000 : Shape := ⟨2, ![1, 240000]⟩
abbrev S240000 : Shape := ⟨1, ![240000]⟩
abbrev S4x4000000 : Shape := ⟨2, ![4, 4000000]⟩
abbrev S4x4000000x1 : Shape := ⟨3, ![4, 4000000, 1]⟩
abbrev S4x1 : Shape := ⟨2, ![4, 1]⟩
abbrev S1x4000000 : Shape := ⟨2, ![1, 4000000]⟩
abbrev S4x160000 : Shape := ⟨2, ![4, 160000]⟩
abbrev S1x160000 : Shape := ⟨2, ![1, 160000]⟩
abbrev S160000 : Shape := ⟨1, ![160000]⟩
abbrev S1x18000000 : Shape := ⟨2, ![1, 18000000]⟩

abbrev nBuf : Space → Nat
  | .hbm => 45
  | .vmem => 15
  | .smem => 0
  | _ => 0

abbrev bufTy : (tb : Table) → Fin (tcTables nBuf tb) → BufTy
  | .hbm, ⟨0, _⟩ => ⟨S1x2000000, .f32⟩
  | .hbm, ⟨1, _⟩ => ⟨S8000000x2, .i32⟩
  | .hbm, ⟨2, _⟩ => ⟨S6000000x3, .i32⟩
  | .hbm, ⟨3, _⟩ => ⟨S4000000x4, .i32⟩
  | .hbm, ⟨4, _⟩ => ⟨S2, .f32⟩
  | .hbm, ⟨5, _⟩ => ⟨S3, .f32⟩
  | .hbm, ⟨6, _⟩ => ⟨S4, .f32⟩
  | .hbm, ⟨7, _⟩ => ⟨S2000000, .f32⟩
  | .hbm, ⟨8, _⟩ => ⟨S2x8000000, .i32⟩
  | .hbm, ⟨9, _⟩ => ⟨S_, .i32⟩
  | .hbm, ⟨10, _⟩ => ⟨S2x8000000, .i32⟩
  | .hbm, ⟨11, _⟩ => ⟨S2x8000000, .i1⟩
  | .hbm, ⟨12, _⟩ => ⟨S_, .i32⟩
  | .hbm, ⟨13, _⟩ => ⟨S2x8000000, .i32⟩
  | .hbm, ⟨14, _⟩ => ⟨S2x8000000, .i32⟩
  | .hbm, ⟨15, _⟩ => ⟨S2x8000000, .i32⟩
  | .hbm, ⟨16, _⟩ => ⟨S2x8000000x1, .i32⟩
  | .hbm, ⟨17, _⟩ => ⟨S2x8000000, .f32⟩
  | .hbm, ⟨18, _⟩ => ⟨S2x1, .f32⟩
  | .hbm, ⟨19, _⟩ => ⟨S1x8000000, .f32⟩
  | .hbm, ⟨20, _⟩ => ⟨S3x6000000, .i32⟩
  | .hbm, ⟨21, _⟩ => ⟨S_, .i32⟩
  | .hbm, ⟨22, _⟩ => ⟨S3x6000000, .i32⟩
  | .hbm, ⟨23, _⟩ => ⟨S3x6000000, .i1⟩
  | .hbm, ⟨24, _⟩ => ⟨S_, .i32⟩
  | .hbm, ⟨25, _⟩ => ⟨S3x6000000, .i32⟩
  | .hbm, ⟨26, _⟩ => ⟨S3x6000000, .i32⟩
  | .hbm, ⟨27, _⟩ => ⟨S3x6000000, .i32⟩
  | .hbm, ⟨28, _⟩ => ⟨S3x6000000x1, .i32⟩
  | .hbm, ⟨29, _⟩ => ⟨S3x6000000, .f32⟩
  | .hbm, ⟨30, _⟩ => ⟨S3x1, .f32⟩
  | .hbm, ⟨31, _⟩ => ⟨S1x6000000, .f32⟩
  | .hbm, ⟨32, _⟩ => ⟨S4x4000000, .i32⟩
  | .hbm, ⟨33, _⟩ => ⟨S_, .i32⟩
  | .hbm, ⟨34, _⟩ => ⟨S4x4000000, .i32⟩
  | .hbm, ⟨35, _⟩ => ⟨S4x4000000, .i1⟩
  | .hbm, ⟨36, _⟩ => ⟨S_, .i32⟩
  | .hbm, ⟨37, _⟩ => ⟨S4x4000000, .i32⟩
  | .hbm, ⟨38, _⟩ => ⟨S4x4000000, .i32⟩
  | .hbm, ⟨39, _⟩ => ⟨S4x4000000, .i32⟩
  | .hbm, ⟨40, _⟩ => ⟨S4x4000000x1, .i32⟩
  | .hbm, ⟨41, _⟩ => ⟨S4x4000000, .f32⟩
  | .hbm, ⟨42, _⟩ => ⟨S4x1, .f32⟩
  | .hbm, ⟨43, _⟩ => ⟨S1x4000000, .f32⟩
  | .hbm, ⟨44, _⟩ => ⟨S1x18000000, .f32⟩
  | .local _ .vmem, ⟨0, _⟩ => ⟨S2x320000, .f32⟩
  | .local _ .vmem, ⟨1, _⟩ => ⟨S2x320000, .f32⟩
  | .local _ .vmem, ⟨2, _⟩ => ⟨S2x1, .f32⟩
  | .local _ .vmem, ⟨3, _⟩ => ⟨S1x320000, .f32⟩
  | .local _ .vmem, ⟨4, _⟩ => ⟨S1x320000, .f32⟩
  | .local _ .vmem, ⟨5, _⟩ => ⟨S3x240000, .f32⟩
  | .local _ .vmem, ⟨6, _⟩ => ⟨S3x240000, .f32⟩
  | .local _ .vmem, ⟨7, _⟩ => ⟨S3x1, .f32⟩
  | .local _ .vmem, ⟨8, _⟩ => ⟨S1x240000, .f32⟩
  | .local _ .vmem, ⟨9, _⟩ => ⟨S1x240000, .f32⟩
  | .local _ .vmem, ⟨10, _⟩ => ⟨S4x160000, .f32⟩
  | .local _ .vmem, ⟨11, _⟩ => ⟨S4x160000, .f32⟩
  | .local _ .vmem, ⟨12, _⟩ => ⟨S4x1, .f32⟩
  | .local _ .vmem, ⟨13, _⟩ => ⟨S1x160000, .f32⟩
  | .local _ .vmem, ⟨14, _⟩ => ⟨S1x160000, .f32⟩
  | _, _ => ⟨S1x2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x320000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x320000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x240000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x240000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x160000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x160000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x2000000_S2000000 : S1x2000000.ShapeCasts S2000000
  transposes_S8000000x2_S2x8000000_1_0 : S8000000x2.Transposes [1, 0] S2x8000000
  bcast_S_S2x8000000 : S_.BroadcastsInDim S2x8000000 (![] : Fin 0 → Fin S2x8000000.rank)
  bcast_S2x8000000_S2x8000000x1_0_1 : S2x8000000.BroadcastsInDim S2x8000000x1 (![0, 1] : Fin 2 → Fin S2x8000000x1.rank)
  shapeCasts_S2_S2x1 : S2.ShapeCasts S2x1
  inb_S2x320000_S2x320000_0_0 : ∀ a, (![0, 0] : Fin 2 → Nat) a + S2x320000.size a ≤ S2x320000.size a
  h_S2x320000 : 0 < S2x320000.numel
  shapeCasts_S2x320000_S2x320000 : S2x320000.ShapeCasts S2x320000
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x320000 : S2x1.Broadcasts S2x320000
  reduces_S2x320000_S320000 : S2x320000.Reduces [0] S320000
  shapeCasts_S320000_S1x320000 : S320000.ShapeCasts S1x320000
  inb_S1x320000_S1x320000_0_0 : ∀ a, (![0, 0] : Fin 2 → Nat) a + S1x320000.size a ≤ S1x320000.size a
  h_S1x320000 : 0 < S1x320000.numel
  transposes_S6000000x3_S3x6000000_1_0 : S6000000x3.Transposes [1, 0] S3x6000000
  bcast_S_S3x6000000 : S_.BroadcastsInDim S3x6000000 (![] : Fin 0 → Fin S3x6000000.rank)
  bcast_S3x6000000_S3x6000000x1_0_1 : S3x6000000.BroadcastsInDim S3x6000000x1 (![0, 1] : Fin 2 → Fin S3x6000000x1.rank)
  shapeCasts_S3_S3x1 : S3.ShapeCasts S3x1
  inb_S3x240000_S3x240000_0_0 : ∀ a, (![0, 0] : Fin 2 → Nat) a + S3x240000.size a ≤ S3x240000.size a
  h_S3x240000 : 0 < S3x240000.numel
  shapeCasts_S3x240000_S3x240000 : S3x240000.ShapeCasts S3x240000
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x240000 : S3x1.Broadcasts S3x240000
  reduces_S3x240000_S240000 : S3x240000.Reduces [0] S240000
  shapeCasts_S240000_S1x240000 : S240000.ShapeCasts S1x240000
  inb_S1x240000_S1x240000_0_0 : ∀ a, (![0, 0] : Fin 2 → Nat) a + S1x240000.size a ≤ S1x240000.size a
  h_S1x240000 : 0 < S1x240000.numel
  transposes_S4000000x4_S4x4000000_1_0 : S4000000x4.Transposes [1, 0] S4x4000000
  bcast_S_S4x4000000 : S_.BroadcastsInDim S4x4000000 (![] : Fin 0 → Fin S4x4000000.rank)
  bcast_S4x4000000_S4x4000000x1_0_1 : S4x4000000.BroadcastsInDim S4x4000000x1 (![0, 1] : Fin 2 → Fin S4x4000000x1.rank)
  shapeCasts_S4_S4x1 : S4.ShapeCasts S4x1
  inb_S4x160000_S4x160000_0_0 : ∀ a, (![0, 0] : Fin 2 → Nat) a + S4x160000.size a ≤ S4x160000.size a
  h_S4x160000 : 0 < S4x160000.numel
  shapeCasts_S4x160000_S4x160000 : S4x160000.ShapeCasts S4x160000
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x160000 : S4x1.Broadcasts S4x160000
  reduces_S4x160000_S160000 : S4x160000.Reduces [0] S160000
  shapeCasts_S160000_S1x160000 : S160000.ShapeCasts S1x160000
  inb_S1x160000_S1x160000_0_0 : ∀ a, (![0, 0] : Fin 2 → Nat) a + S1x160000.size a ≤ S1x160000.size a
  h_S1x160000 : 0 < S1x160000.numel
  concatenates_S1x8000000_S1x6000000_S1x4000000_S1x18000000_d1 : Shape.Concatenates [S1x8000000, S1x6000000, S1x4000000] S1x18000000 1
  gather_S2000000_S2x8000000x1_S2x8000000_n_0_n_n_0_2_1_wf : GatherDims.WF S2000000 S2x8000000x1 S2x8000000 [] [0] [] [0] [] 2 ![1]
  gather_S2000000_S3x6000000x1_S3x6000000_n_0_n_n_0_2_1_wf : GatherDims.WF S2000000 S3x6000000x1 S3x6000000 [] [0] [] [0] [] 2 ![1]
  gather_S2000000_S4x4000000x1_S4x4000000_n_0_n_n_0_2_1_wf : GatherDims.WF S2000000 S4x4000000x1 S4x4000000 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x320000.size a ≤ S2x8000000.size a
  hwx0_0 : ∀ i : grid0.Coords, EltTy.bits .f32 = 32 ∨ (Rect.block (s := S2x8000000) S2x320000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1.size a ≤ S2x1.size a
  hwx0_1 : ∀ i : grid0.Coords, EltTy.bits .f32 = 32 ∨ (Rect.block (s := S2x1) S2x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x320000.size a ≤ S1x8000000.size a
  hwx0_2 : ∀ i : grid0.Coords, EltTy.bits .f32 = 32 ∨ (Rect.block (s := S1x8000000) S1x320000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x240000.size a ≤ S3x6000000.size a
  hwx1_0 : ∀ i : grid1.Coords, EltTy.bits .f32 = 32 ∨ (Rect.block (s := S3x6000000) S3x240000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x1.size a ≤ S3x1.size a
  hwx1_1 : ∀ i : grid1.Coords, EltTy.bits .f32 = 32 ∨ (Rect.block (s := S3x1) S3x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x240000.size a ≤ S1x6000000.size a
  hwx1_2 : ∀ i : grid1.Coords, EltTy.bits .f32 = 32 ∨ (Rect.block (s := S1x6000000) S1x240000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x160000.size a ≤ S4x4000000.size a
  hwx2_0 : ∀ i : grid2.Coords, EltTy.bits .f32 = 32 ∨ (Rect.block (s := S4x4000000) S4x160000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x1.size a ≤ S4x1.size a
  hwx2_1 : ∀ i : grid2.Coords, EltTy.bits .f32 = 32 ∨ (Rect.block (s := S4x1) S4x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x160000.size a ≤ S1x4000000.size a
  hwx2_2 : ∀ i : grid2.Coords, EltTy.bits .f32 = 32 ∨ (Rect.block (s := S1x4000000) S1x160000.size (cc2_transform_2 i) (hinb2_2 i)).WholeWords (EltTy.packing .f32)

variable [Facts₀]

def gather_S2000000_S2x8000000x1_S2x8000000_n_0_n_n_0_2_1 : GatherDims S2000000 S2x8000000x1 S2x8000000 where
  offsetDims := []
  collapsedSliceDims := [0]
  operandBatchingDims := []
  startIndicesBatchingDims := []
  startIndexMap := [0]
  indexVectorDim := 2
  sliceSizes := ![1]
  wf := gather_S2000000_S2x8000000x1_S2x8000000_n_0_n_n_0_2_1_wf
def gather_S2000000_S3x6000000x1_S3x6000000_n_0_n_n_0_2_1 : GatherDims S2000000 S3x6000000x1 S3x6000000 where
  offsetDims := []
  collapsedSliceDims := [0]
  operandBatchingDims := []
  startIndicesBatchingDims := []
  startIndexMap := [0]
  indexVectorDim := 2
  sliceSizes := ![1]
  wf := gather_S2000000_S3x6000000x1_S3x6000000_n_0_n_n_0_2_1_wf
def gather_S2000000_S4x4000000x1_S4x4000000_n_0_n_n_0_2_1 : GatherDims S2000000 S4x4000000x1 S4x4000000 where
  offsetDims := []
  collapsedSliceDims := [0]
  operandBatchingDims := []
  startIndicesBatchingDims := []
  startIndexMap := [0]
  indexVectorDim := 2
  sliceSizes := ![1]
  wf := gather_S2000000_S4x4000000x1_S4x4000000_n_0_n_n_0_2_1_wf

abbrev win0_0 : Pipeline.Window sig grid0 :=
  Pipeline.Window.ofSpec (Memref.whole main_v8) S2x320000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x320000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S3x240000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S3x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x240000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S4x160000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x160000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x2000000 : Shape := ⟨2, ![1, 2000000]⟩
abbrev S8000000x2 : Shape := ⟨2, ![8000000, 2]⟩
abbrev S6000000x3 : Shape := ⟨2, ![6000000, 3]⟩
abbrev S4000000x4 : Shape := ⟨2, ![4000000, 4]⟩
abbrev S2 : Shape := ⟨1, ![2]⟩
abbrev S3 : Shape := ⟨1, ![3]⟩
abbrev S4 : Shape := ⟨1, ![4]⟩
abbrev S2000000 : Shape := ⟨1, ![2000000]⟩
abbrev S_ : Shape := ⟨0, ![]⟩
abbrev S8000000x2x1 : Shape := ⟨3, ![8000000, 2, 1]⟩
abbrev S8000000 : Shape := ⟨1, ![8000000]⟩
abbrev S6000000x3x1 : Shape := ⟨3, ![6000000, 3, 1]⟩
abbrev S6000000 : Shape := ⟨1, ![6000000]⟩
abbrev S4000000x4x1 : Shape := ⟨3, ![4000000, 4, 1]⟩
abbrev S4000000 : Shape := ⟨1, ![4000000]⟩
abbrev S18000000 : Shape := ⟨1, ![18000000]⟩
abbrev S1x18000000 : Shape := ⟨2, ![1, 18000000]⟩

abbrev nBuf : Space → Nat
  | .hbm => 76
  | .vmem => 0
  | .smem => 0
  | _ => 0

abbrev bufTy : (tb : Table) → Fin (tcTables nBuf tb) → BufTy
  | .hbm, ⟨0, _⟩ => ⟨S1x2000000, .f32⟩
  | .hbm, ⟨1, _⟩ => ⟨S8000000x2, .i32⟩
  | .hbm, ⟨2, _⟩ => ⟨S6000000x3, .i32⟩
  | .hbm, ⟨3, _⟩ => ⟨S4000000x4, .i32⟩
  | .hbm, ⟨4, _⟩ => ⟨S2, .i32⟩
  | .hbm, ⟨5, _⟩ => ⟨S3, .i32⟩
  | .hbm, ⟨6, _⟩ => ⟨S4, .i32⟩
  | .hbm, ⟨7, _⟩ => ⟨S2000000, .f32⟩
  | .hbm, ⟨8, _⟩ => ⟨S_, .i32⟩
  | .hbm, ⟨9, _⟩ => ⟨S8000000x2, .i32⟩
  | .hbm, ⟨10, _⟩ => ⟨S8000000x2, .i1⟩
  | .hbm, ⟨11, _⟩ => ⟨S_, .i32⟩
  | .hbm, ⟨12, _⟩ => ⟨S8000000x2, .i32⟩
  | .hbm, ⟨13, _⟩ => ⟨S8000000x2, .i32⟩
  | .hbm, ⟨14, _⟩ => ⟨S8000000x2, .i32⟩
  | .hbm, ⟨15, _⟩ => ⟨S8000000x2x1, .i32⟩
  | .hbm, ⟨16, _⟩ => ⟨S8000000x2, .f32⟩
  | .hbm, ⟨17, _⟩ => ⟨S_, .i32⟩
  | .hbm, ⟨18, _⟩ => ⟨S2, .i32⟩
  | .hbm, ⟨19, _⟩ => ⟨S2, .i1⟩
  | .hbm, ⟨20, _⟩ => ⟨S_, .f32⟩
  | .hbm, ⟨21, _⟩ => ⟨S8000000x2, .f32⟩
  | .hbm, ⟨22, _⟩ => ⟨S8000000x2, .f32⟩
  | .hbm, ⟨23, _⟩ => ⟨S8000000x2, .i1⟩
  | .hbm, ⟨24, _⟩ => ⟨S8000000x2, .f32⟩
  | .hbm, ⟨25, _⟩ => ⟨S_, .f32⟩
  | .hbm, ⟨26, _⟩ => ⟨S8000000, .f32⟩
  | .hbm, ⟨27, _⟩ => ⟨S_, .f32⟩
  | .hbm, ⟨28, _⟩ => ⟨S8000000, .f32⟩
  | .hbm, ⟨29, _⟩ => ⟨S8000000, .f32⟩
  | .hbm, ⟨30, _⟩ => ⟨S_, .i32⟩
  | .hbm, ⟨31, _⟩ => ⟨S6000000x3, .i32⟩
  | .hbm, ⟨32, _⟩ => ⟨S6000000x3, .i1⟩
  | .hbm, ⟨33, _⟩ => ⟨S_, .i32⟩
  | .hbm, ⟨34, _⟩ => ⟨S6000000x3, .i32⟩
  | .hbm, ⟨35, _⟩ => ⟨S6000000x3, .i32⟩
  | .hbm, ⟨36, _⟩ => ⟨S6000000x3, .i32⟩
  | .hbm, ⟨37, _⟩ => ⟨S6000000x3x1, .i32⟩
  | .hbm, ⟨38, _⟩ => ⟨S6000000x3, .f32⟩
  | .hbm, ⟨39, _⟩ => ⟨S_, .i32⟩
  | .hbm, ⟨40, _⟩ => ⟨S3, .i32⟩
  | .hbm, ⟨41, _⟩ => ⟨S3, .i1⟩
  | .hbm, ⟨42, _⟩ => ⟨S_, .f32⟩
  | .hbm, ⟨43, _⟩ => ⟨S6000000x3, .f32⟩
  | .hbm, ⟨44, _⟩ => ⟨S6000000x3, .f32⟩
  | .hbm, ⟨45, _⟩ => ⟨S6000000x3, .i1⟩
  | .hbm, ⟨46, _⟩ => ⟨S6000000x3, .f32⟩
  | .hbm, ⟨47, _⟩ => ⟨S_, .f32⟩
  | .hbm, ⟨48, _⟩ => ⟨S6000000, .f32⟩
  | .hbm, ⟨49, _⟩ => ⟨S_, .f32⟩
  | .hbm, ⟨50, _⟩ => ⟨S6000000, .f32⟩
  | .hbm, ⟨51, _⟩ => ⟨S6000000, .f32⟩
  | .hbm, ⟨52, _⟩ => ⟨S_, .i32⟩
  | .hbm, ⟨53, _⟩ => ⟨S4000000x4, .i32⟩
  | .hbm, ⟨54, _⟩ => ⟨S4000000x4, .i1⟩
  | .hbm, ⟨55, _⟩ => ⟨S_, .i32⟩
  | .hbm, ⟨56, _⟩ => ⟨S4000000x4, .i32⟩
  | .hbm, ⟨57, _⟩ => ⟨S4000000x4, .i32⟩
  | .hbm, ⟨58, _⟩ => ⟨S4000000x4, .i32⟩
  | .hbm, ⟨59, _⟩ => ⟨S4000000x4x1, .i32⟩
  | .hbm, ⟨60, _⟩ => ⟨S4000000x4, .f32⟩
  | .hbm, ⟨61, _⟩ => ⟨S_, .i32⟩
  | .hbm, ⟨62, _⟩ => ⟨S4, .i32⟩
  | .hbm, ⟨63, _⟩ => ⟨S4, .i1⟩
  | .hbm, ⟨64, _⟩ => ⟨S_, .f32⟩
  | .hbm, ⟨65, _⟩ => ⟨S4000000x4, .f32⟩
  | .hbm, ⟨66, _⟩ => ⟨S4000000x4, .f32⟩
  | .hbm, ⟨67, _⟩ => ⟨S4000000x4, .i1⟩
  | .hbm, ⟨68, _⟩ => ⟨S4000000x4, .f32⟩
  | .hbm, ⟨69, _⟩ => ⟨S_, .f32⟩
  | .hbm, ⟨70, _⟩ => ⟨S4000000, .f32⟩
  | .hbm, ⟨71, _⟩ => ⟨S_, .f32⟩
  | .hbm, ⟨72, _⟩ => ⟨S4000000, .f32⟩
  | .hbm, ⟨73, _⟩ => ⟨S4000000, .f32⟩
  | .hbm, ⟨74, _⟩ => ⟨S18000000, .f32⟩
  | .hbm, ⟨75, _⟩ => ⟨S1x18000000, .f32⟩
  | _, _ => ⟨S1x2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_4 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_v17 : Ref sig .tc := ⟨.hbm, 32, rfl⟩
abbrev main_c_8 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_v27 : Ref sig .tc := ⟨.hbm, 46, rfl⟩
abbrev main_cst_11 : Ref sig .tc := ⟨.hbm, 47, rfl⟩
abbrev main_v28 : Ref sig .tc := ⟨.hbm, 48, rfl⟩
abbrev main_cst_12 : Ref sig .tc := ⟨.hbm, 49, rfl⟩
abbrev main_v29 : Ref sig .tc := ⟨.hbm, 50, rfl⟩
abbrev main_v30 : Ref sig .tc := ⟨.hbm, 51, rfl⟩
abbrev main_c_13 : Ref sig .tc := ⟨.hbm, 52, rfl⟩
abbrev main_v31 : Ref sig .tc := ⟨.hbm, 53, rfl⟩
abbrev main_v32 : Ref sig .tc := ⟨.hbm, 54, rfl⟩
abbrev main_c_14 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_15 : Ref sig .tc := ⟨.hbm, 61, rfl⟩
abbrev main_v38 : Ref sig .tc := ⟨.hbm, 62, rfl⟩
abbrev main_v39 : Ref sig .tc := ⟨.hbm, 63, rfl⟩
abbrev main_cst_16 : Ref sig .tc := ⟨.hbm, 64, rfl⟩
abbrev main_v40 : Ref sig .tc := ⟨.hbm, 65, rfl⟩
abbrev main_v41 : Ref sig .tc := ⟨.hbm, 66, rfl⟩
abbrev main_call2_v0 : Ref sig .tc := ⟨.hbm, 67, rfl⟩
abbrev main_v42 : Ref sig .tc := ⟨.hbm, 68, rfl⟩
abbrev main_cst_17 : Ref sig .tc := ⟨.hbm, 69, rfl⟩
abbrev main_v43 : Ref sig .tc := ⟨.hbm, 70, rfl⟩
abbrev main_cst_18 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]

class Facts₀ : Prop where
  shapeCasts_S1x2000000_S2000000 : S1x2000000.ShapeCasts S2000000
  bcast_S_S8000000x2 : S_.BroadcastsInDim S8000000x2 (![] : Fin 0 → Fin S8000000x2.rank)
  bcast_S8000000x2_S8000000x2x1_0_1 : S8000000x2.BroadcastsInDim S8000000x2x1 (![0, 1] : Fin 2 → Fin S8000000x2x1.rank)
  bcast_S_S2 : S_.BroadcastsInDim S2 (![] : Fin 0 → Fin S2.rank)
  bcast_S2_S8000000x2_1 : S2.BroadcastsInDim S8000000x2 (![1] : Fin 1 → Fin S8000000x2.rank)
  reducesTo_S8000000x2_S8000000_d1 : S8000000x2.ReducesTo [1] S8000000
  h_S_ : 0 < S_.numel
  bcast_S_S8000000 : S_.BroadcastsInDim S8000000 (![] : Fin 0 → Fin S8000000.rank)
  bcast_S_S6000000x3 : S_.BroadcastsInDim S6000000x3 (![] : Fin 0 → Fin S6000000x3.rank)
  bcast_S6000000x3_S6000000x3x1_0_1 : S6000000x3.BroadcastsInDim S6000000x3x1 (![0, 1] : Fin 2 → Fin S6000000x3x1.rank)
  bcast_S_S3 : S_.BroadcastsInDim S3 (![] : Fin 0 → Fin S3.rank)
  bcast_S3_S6000000x3_1 : S3.BroadcastsInDim S6000000x3 (![1] : Fin 1 → Fin S6000000x3.rank)
  reducesTo_S6000000x3_S6000000_d1 : S6000000x3.ReducesTo [1] S6000000
  bcast_S_S6000000 : S_.BroadcastsInDim S6000000 (![] : Fin 0 → Fin S6000000.rank)
  bcast_S_S4000000x4 : S_.BroadcastsInDim S4000000x4 (![] : Fin 0 → Fin S4000000x4.rank)
  bcast_S4000000x4_S4000000x4x1_0_1 : S4000000x4.BroadcastsInDim S4000000x4x1 (![0, 1] : Fin 2 → Fin S4000000x4x1.rank)
  bcast_S_S4 : S_.BroadcastsInDim S4 (![] : Fin 0 → Fin S4.rank)
  bcast_S4_S4000000x4_1 : S4.BroadcastsInDim S4000000x4 (![1] : Fin 1 → Fin S4000000x4.rank)
  reducesTo_S4000000x4_S4000000_d1 : S4000000x4.ReducesTo [1] S4000000
  bcast_S_S4000000 : S_.BroadcastsInDim S4000000 (![] : Fin 0 → Fin S4000000.rank)
  concatenates_S8000000_S6000000_S4000000_S18000000_d0 : Shape.Concatenates [S8000000, S6000000, S4000000] S18000000 0
  bcast_S18000000_S1x18000000_1 : S18000000.BroadcastsInDim S1x18000000 (![1] : Fin 1 → Fin S1x18000000.rank)
  gather_S2000000_S8000000x2x1_S8000000x2_n_0_n_n_0_2_1_wf : GatherDims.WF S2000000 S8000000x2x1 S8000000x2 [] [0] [] [0] [] 2 ![1]
  gather_S2000000_S6000000x3x1_S6000000x3_n_0_n_n_0_2_1_wf : GatherDims.WF S2000000 S6000000x3x1 S6000000x3 [] [0] [] [0] [] 2 ![1]
  gather_S2000000_S4000000x4x1_S4000000x4_n_0_n_n_0_2_1_wf : GatherDims.WF S2000000 S4000000x4x1 S4000000x4 [] [0] [] [0] [] 2 ![1]

variable [Facts₀]

def gather_S2000000_S8000000x2x1_S8000000x2_n_0_n_n_0_2_1 : GatherDims S2000000 S8000000x2x1 S8000000x2 where
  offsetDims := []
  collapsedSliceDims := [0]
  operandBatchingDims := []
  startIndicesBatchingDims := []
  startIndexMap := [0]
  indexVectorDim := 2
  sliceSizes := ![1]
  wf := gather_S2000000_S8000000x2x1_S8000000x2_n_0_n_n_0_2_1_wf
def gather_S2000000_S6000000x3x1_S6000000x3_n_0_n_n_0_2_1 : GatherDims S2000000 S6000000x3x1 S6000000x3 where
  offsetDims := []
  collapsedSliceDims := [0]
  operandBatchingDims := []
  startIndicesBatchingDims := []
  startIndexMap := [0]
  indexVectorDim := 2
  sliceSizes := ![1]
  wf := gather_S2000000_S6000000x3x1_S6000000x3_n_0_n_n_0_2_1_wf
def gather_S2000000_S4000000x4x1_S4000000x4_n_0_n_n_0_2_1 : GatherDims S2000000 S4000000x4x1 S4000000x4 where
  offsetDims := []
  collapsedSliceDims := [0]
  operandBatchingDims := []
  startIndicesBatchingDims := []
  startIndexMap := [0]
  indexVectorDim := 2
  sliceSizes := ![1]
  wf := gather_S2000000_S4000000x4x1_S4000000x4_n_0_n_n_0_2_1_wf

class Facts : Prop extends Facts₀ where

variable [Facts]
-- ==== Proof.KernelRun.lean ====
/-
  The run of the program from launch to return, at any float instance.

  The program is three clause-evaluation pallas_calls (one per formula, each a grid of 25 points over column blocks of
  its gathered-atoms array) among four stretches of host operations: the gathers and sign columns before each call, and
  the closing concatenation. This module proves that every weakly fair execution terminates without a fault and names the
  contents of EVERY unscoped buffer at the end: the fold `W7` through the seven items — a host stretch applies its
  operations to the valuation, a call replaces its output array by the blocks its grid points wrote back and leaves every
  other buffer alone. Per call, the body's effect on its staging buffers is one covering store of the clause values
  computed from the two input blocks; the input windows hold their blocks at every point (the sign column, fetched once,
  never moves). From the final valuation follow the frame (no item writes an argument array) and, in the modules that
  read `W7` at the result, the program's value.
-/
import proofs.«173380_j75831942578505_1_alg».proof.Proof.Gen.Kernel.Launch
import proofs.«173380_j75831942578505_1_alg».proof.Proof.Gen.Kernel.Skeleton
import proofs.«173380_j75831942578505_1_alg».proof.Proof.Gen.Kernel.Points
import proofs.«173380_j75831942578505_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered
variable (V : (c : Dev nD) → (b : Ref sig .tc) → Buf (Elt F) ((c : Thread nD τ).loc b))

/-! # Region 0: the clause evaluation of formula 0 (arity 2), at the entry contents `V`

A grid point `t` sees the `2 × 320000` block of gathered atom values whose columns are cliques `t·320000 … (t+1)·320000 - 1`,
the whole `2 × 1` sign column, and writes the `1 × 320000` block of clause values of those cliques. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered-values window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The sign column's staging buffer holds the column at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes whole staging buffers. -/
abbrev r0_g : Rect S2x320000 := Rect.unit (s := S2x320000) ![0, 0] S2x320000.size inb_S2x320000_S2x320000_0_0
abbrev r0_s : Rect S2x1 := Rect.unit (s := S2x1) ![0, 0] S2x1.size inb_S2x1_S2x1_0_0
abbrev r0_o : Rect S1x320000 := Rect.unit (s := S1x320000) ![0, 0] S1x320000.size inb_S1x320000_S1x320000_0_0

/-- What the body leaves in the output staging buffer: its one whole-buffer store of the clause values computed
    from the gathered block and the sign column. -/
def out0_2 (x0 : Vec F S2x320000 .f32) (x1 : Vec F S2x1 .f32) : Vec F S1x320000 .f32 :=
  View.canon [⟨r0_o, k0_pay1 (View.ld x0 r0_g) (View.ld x1 r0_s)⟩]

/-- The one store covers the buffer. -/
theorem cover0_2 (p0 : Vec F S1x320000 .f32) (y : S1x320000.Idx) :
    ∃ pc ∈ ([⟨r0_o, p0⟩] : List (View.Piece (Elt F) S1x320000 .f32)), y ∈ pc.1.set :=
  View.cover_of_tiled [⟨r0_o, p0⟩] S1x320000.size (by rfl) y

set_option maxHeartbeats 1000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S2x320000 .f32) (harg1 : arg1.IsWhole) (arg2 : Memref sig .tc .vmem S2x1 .f32) (harg2 : arg2.IsWhole) (arg3 : Memref sig .tc .vmem S1x320000 .f32) (harg3 : arg3.IsWhole)
    (x0 : Vec F S2x320000 .f32) (x1 : Vec F S2x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__eval_kernel i arg1 harg1 arg2 harg2 arg3 harg3) K := by
  simp only [cc0__eval_kernel_eq_skeleton]; unfold cc0__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer still at its block and the output's at `out0_2` of the two input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the clause evaluation of formula 1 (arity 3), at the entry contents `V`

A grid point `t` sees the `3 × 240000` block of gathered atom values whose columns are cliques `t·240000 … (t+1)·240000 - 1`,
the whole `3 × 1` sign column, and writes the `1 × 240000` block of clause values of those cliques. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered-values window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The sign column's staging buffer holds the column at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes whole staging buffers. -/
abbrev r1_g : Rect S3x240000 := Rect.unit (s := S3x240000) ![0, 0] S3x240000.size inb_S3x240000_S3x240000_0_0
abbrev r1_s : Rect S3x1 := Rect.unit (s := S3x1) ![0, 0] S3x1.size inb_S3x1_S3x1_0_0
abbrev r1_o : Rect S1x240000 := Rect.unit (s := S1x240000) ![0, 0] S1x240000.size inb_S1x240000_S1x240000_0_0

/-- What the body leaves in the output staging buffer: its one whole-buffer store of the clause values computed
    from the gathered block and the sign column. -/
def out1_2 (x0 : Vec F S3x240000 .f32) (x1 : Vec F S3x1 .f32) : Vec F S1x240000 .f32 :=
  View.canon [⟨r1_o, k1_pay1 (View.ld x0 r1_g) (View.ld x1 r1_s)⟩]

/-- The one store covers the buffer. -/
theorem cover1_2 (p0 : Vec F S1x240000 .f32) (y : S1x240000.Idx) :
    ∃ pc ∈ ([⟨r1_o, p0⟩] : List (View.Piece (Elt F) S1x240000 .f32)), y ∈ pc.1.set :=
  View.cover_of_tiled [⟨r1_o, p0⟩] S1x240000.size (by rfl) y

set_option maxHeartbeats 1000000 in
/-- The body on whole staging memrefs — the inputs' at contents `x0`, `x1`, the output's at anything — runs to the
    continuation with the inputs' as they were and the output's at `out1_2 x0 x1`. -/
theorem sound_kernel1 (c : Dev nD) (E : Set ℕ) (i : grid1.Coords) (arg1 : Memref sig .tc .vmem S3x240000 .f32) (harg1 : arg1.IsWhole) (arg2 : Memref sig .tc .vmem S3x1 .f32) (harg2 : arg2.IsWhole) (arg3 : Memref sig .tc .vmem S1x240000 .f32) (harg3 : arg3.IsWhole)
    (x0 : Vec F S3x240000 .f32) (x1 : Vec F S3x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__eval_kernel i arg1 harg1 arg2 harg2 arg3 harg3) K := by
  simp only [cc1__eval_kernel_eq_skeleton]; unfold cc1__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer still at its block and the output's at `out1_2` of the two input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the clause evaluation of formula 2 (arity 4), at the entry contents `V`

A grid point `t` sees the `4 × 160000` block of gathered atom values whose columns are cliques `t·160000 … (t+1)·160000 - 1`,
the whole `4 × 1` sign column, and writes the `1 × 160000` block of clause values of those cliques. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The gathered-values window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The sign column's staging buffer holds the column at every point: fetched once, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes whole staging buffers. -/
abbrev r2_g : Rect S4x160000 := Rect.unit (s := S4x160000) ![0, 0] S4x160000.size inb_S4x160000_S4x160000_0_0
abbrev r2_s : Rect S4x1 := Rect.unit (s := S4x1) ![0, 0] S4x1.size inb_S4x1_S4x1_0_0
abbrev r2_o : Rect S1x160000 := Rect.unit (s := S1x160000) ![0, 0] S1x160000.size inb_S1x160000_S1x160000_0_0

/-- What the body leaves in the output staging buffer: its one whole-buffer store of the clause values computed
    from the gathered block and the sign column. -/
def out2_2 (x0 : Vec F S4x160000 .f32) (x1 : Vec F S4x1 .f32) : Vec F S1x160000 .f32 :=
  View.canon [⟨r2_o, k2_pay1 (View.ld x0 r2_g) (View.ld x1 r2_s)⟩]

/-- The one store covers the buffer. -/
theorem cover2_2 (p0 : Vec F S1x160000 .f32) (y : S1x160000.Idx) :
    ∃ pc ∈ ([⟨r2_o, p0⟩] : List (View.Piece (Elt F) S1x160000 .f32)), y ∈ pc.1.set :=
  View.cover_of_tiled [⟨r2_o, p0⟩] S1x160000.size (by rfl) y

set_option maxHeartbeats 1000000 in
/-- The body on whole staging memrefs — the inputs' at contents `x0`, `x1`, the output's at anything — runs to the
    continuation with the inputs' as they were and the output's at `out2_2 x0 x1`. -/
theorem sound_kernel2 (c : Dev nD) (E : Set ℕ) (i : grid2.Coords) (arg1 : Memref sig .tc .vmem S4x160000 .f32) (harg1 : arg1.IsWhole) (arg2 : Memref sig .tc .vmem S4x1 .f32) (harg2 : arg2.IsWhole) (arg3 : Memref sig .tc .vmem S1x160000 .f32) (harg3 : arg3.IsWhole)
    (x0 : Vec F S4x160000 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__eval_kernel i arg1 harg1 arg2 harg2 arg3 harg3) K := by
  simp only [cc2__eval_kernel_eq_skeleton]; unfold cc2__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer still at its block and the output's at `out2_2` of the two input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

/-! # The run: the buffer contents at each boundary between items, a fold through the program -/

/-- Core `c`'s buffers at launch. -/
abbrev W0 : Dev nD → Valuation τ sig (Elt F) := fun c b => (s₀ m ρ).mem ((c : Dev nD), b)

/-- After the host operations before region 0: region 0's entry contents. -/
abbrev W1 : Dev nD → Valuation τ sig (Elt F) := fun c => StableHlo.after hostOps0 (W0 m ρ c)
/-- The same, read at the TensorCore's references. -/
abbrev U1 : (c : Dev nD) → (b : Ref sig .tc) → Buf (Elt F) ((c : Thread nD τ).loc b) := fun c b => W1 m ρ c b
/-- At region 0's exit: its arrays at what the pipeline leaves (the inputs as entered, the output's blocks written back),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- No host operation before region 0 writes `b`: it is as the stretch found it. -/
theorem W1_keep (c : Dev nD) (b : Ref sig .tc) (h : b ∉ (hostOps0_W : List (Ref sig .tc))) : W1 m ρ c b = W0 m ρ c b :=
  StableHlo.after_of_writes_sub hostOps0 _ hostOps0_writes h

/-- After the host operations before region 1: region 1's entry contents. -/
abbrev W3 : Dev nD → Valuation τ sig (Elt F) := fun c => StableHlo.after hostOps1 (W2 m ρ c)
/-- The same, read at the TensorCore's references. -/
abbrev U3 : (c : Dev nD) → (b : Ref sig .tc) → Buf (Elt F) ((c : Thread nD τ).loc b) := fun c b => W3 m ρ c b
/-- At region 1's exit: its arrays at what the pipeline leaves (the inputs as entered, the output's blocks written back),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- No host operation before region 1 writes `b`: it is as the stretch found it. -/
theorem W3_keep (c : Dev nD) (b : Ref sig .tc) (h : b ∉ (hostOps1_W : List (Ref sig .tc))) : W3 m ρ c b = W2 m ρ c b :=
  StableHlo.after_of_writes_sub hostOps1 _ hostOps1_writes h

/-- After the host operations before region 2: region 2's entry contents. -/
abbrev W5 : Dev nD → Valuation τ sig (Elt F) := fun c => StableHlo.after hostOps2 (W4 m ρ c)
/-- The same, read at the TensorCore's references. -/
abbrev U5 : (c : Dev nD) → (b : Ref sig .tc) → Buf (Elt F) ((c : Thread nD τ).loc b) := fun c b => W5 m ρ c b
/-- At region 2's exit: its arrays at what the pipeline leaves (the inputs as entered, the output's blocks written back),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- No host operation before region 2 writes `b`: it is as the stretch found it. -/
theorem W5_keep (c : Dev nD) (b : Ref sig .tc) (h : b ∉ (hostOps2_W : List (Ref sig .tc))) : W5 m ρ c b = W4 m ρ c b :=
  StableHlo.after_of_writes_sub hostOps2 _ hostOps2_writes h

/-- After the closing concatenation: the contents at the return. -/
abbrev W7 : Dev nD → Valuation τ sig (Elt F) := fun c => StableHlo.after hostOps3 (W6 m ρ c)
theorem W7_keep (c : Dev nD) (b : Ref sig .tc) (h : b ∉ (hostOps3_W : List (Ref sig .tc))) : W7 m ρ c b = W6 m ρ c b :=
  StableHlo.after_of_writes_sub hostOps3 _ hostOps3_writes h

/-! ### The arguments end as launched: no host operation writes one and no call has one among its arrays -/

theorem W7_main_arg0 (c : Dev nD) : W7 m ρ c main_arg0 = m ((c : Thread nD τ).loc main_arg0) :=
  (W7_keep m ρ c main_arg0 (by decide)).trans <| (W6_of_ne m ρ c main_arg0 (by decide)).trans <| (W5_keep m ρ c main_arg0 (by decide)).trans <|
    (W4_of_ne m ρ c main_arg0 (by decide)).trans <| (W3_keep m ρ c main_arg0 (by decide)).trans <| (W2_of_ne m ρ c main_arg0 (by decide)).trans <|
    (W1_keep m ρ c main_arg0 (by decide)).trans rfl
theorem W7_main_arg1 (c : Dev nD) : W7 m ρ c main_arg1 = m ((c : Thread nD τ).loc main_arg1) :=
  (W7_keep m ρ c main_arg1 (by decide)).trans <| (W6_of_ne m ρ c main_arg1 (by decide)).trans <| (W5_keep m ρ c main_arg1 (by decide)).trans <|
    (W4_of_ne m ρ c main_arg1 (by decide)).trans <| (W3_keep m ρ c main_arg1 (by decide)).trans <| (W2_of_ne m ρ c main_arg1 (by decide)).trans <|
    (W1_keep m ρ c main_arg1 (by decide)).trans rfl
theorem W7_main_arg2 (c : Dev nD) : W7 m ρ c main_arg2 = m ((c : Thread nD τ).loc main_arg2) :=
  (W7_keep m ρ c main_arg2 (by decide)).trans <| (W6_of_ne m ρ c main_arg2 (by decide)).trans <| (W5_keep m ρ c main_arg2 (by decide)).trans <|
    (W4_of_ne m ρ c main_arg2 (by decide)).trans <| (W3_keep m ρ c main_arg2 (by decide)).trans <| (W2_of_ne m ρ c main_arg2 (by decide)).trans <|
    (W1_keep m ρ c main_arg2 (by decide)).trans rfl
theorem W7_main_arg3 (c : Dev nD) : W7 m ρ c main_arg3 = m ((c : Thread nD τ).loc main_arg3) :=
  (W7_keep m ρ c main_arg3 (by decide)).trans <| (W6_of_ne m ρ c main_arg3 (by decide)).trans <| (W5_keep m ρ c main_arg3 (by decide)).trans <|
    (W4_of_ne m ρ c main_arg3 (by decide)).trans <| (W3_keep m ρ c main_arg3 (by decide)).trans <| (W2_of_ne m ρ c main_arg3 (by decide)).trans <|
    (W1_keep m ρ c main_arg3 (by decide)).trans rfl

/-! ## The proof data family and the thread state -/

/-- No call has a prefetched table. -/
abbrev admK : (p : Fin 3) → (pcfgs (F := F) p).Adm := fun p => (cfgs p).toPCfg_adm
/-- Every call's proof data, each at its region's entry contents. -/
def pdats : (p : Fin 3) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The calls as segments -/

-- a library lemma stated over the pinned configuration unifies with the printed one only when unification may unfold
-- plain definitions in a metavariable's type
set_option backward.isDefEq.respectTransparency.types false in
/-- Region 0 over the thread state: entered with every unscoped buffer at `W1`, left with them at `W2`. Its arrays are
    split out of the unscoped buffers on entry and put back at the exit contents; the generator register goes into the
    class invariant and comes back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays are
    split out of the unscoped buffers on entry and put back at the exit contents; the generator register goes into the
    class invariant and comes back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays are
    split out of the unscoped buffers on entry and put back at the exit contents; the generator register goes into the
    class invariant and comes back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsK : List (Pipeline.Seg (pcfgs (F := F)) admK (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program IS the run of the segments. -/
theorem main_run (c : Dev nD) : main (F := F) c = Pipeline.Seg.run (segsK m ρ) := (main_chain c).trans (by chain_rfl)

set_option backward.isDefEq.respectTransparency.types false in
/-- THE RUN: from any memory with zero counters every weakly fair execution of the program terminates, nothing faulting,
    and in every final state each unscoped buffer of core `c` holds `W7 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admK (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: the run, read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.Kernel.Run

end
-- ==== Proof.KernelIdealRun.lean ====
/-
  The run of the program from launch to return, at any float instance.

  The program is three clause-evaluation pallas_calls (one per formula, each a grid of 25 points over column blocks of
  its gathered-atoms array) among four stretches of host operations: the gathers and sign columns before each call, and
  the closing concatenation. This module proves that every weakly fair execution terminates without a fault and names the
  contents of EVERY unscoped buffer at the end: the fold `W7` through the seven items — a host stretch applies its
  operations to the valuation, a call replaces its output array by the blocks its grid points wrote back and leaves every
  other buffer alone. Per call, the body's effect on its staging buffers is one covering store of the clause values
  computed from the two input blocks; the input windows hold their blocks at every point (the sign column, fetched once,
  never moves). From the final valuation follow the frame (no item writes an argument array) and, in the modules that
  read `W7` at the result, the program's value.
-/
import proofs.«173380_j75831942578505_1_alg».proof.Proof.Gen.KernelIdeal.Launch
import proofs.«173380_j75831942578505_1_alg».proof.Proof.Gen.KernelIdeal.Skeleton
import proofs.«173380_j75831942578505_1_alg».proof.Proof.Gen.KernelIdeal.Points
import proofs.«173380_j75831942578505_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered
variable (V : (c : Dev nD) → (b : Ref sig .tc) → Buf (Elt F) ((c : Thread nD τ).loc b))

/-! # Region 0: the clause evaluation of formula 0 (arity 2), at the entry contents `V`

A grid point `t` sees the `2 × 320000` block of gathered atom values whose columns are cliques `t·320000 … (t+1)·320000 - 1`,
the whole `2 × 1` sign column, and writes the `1 × 320000` block of clause values of those cliques. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered-values window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The sign column's staging buffer holds the column at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes whole staging buffers. -/
abbrev r0_g : Rect S2x320000 := Rect.unit (s := S2x320000) ![0, 0] S2x320000.size inb_S2x320000_S2x320000_0_0
abbrev r0_s : Rect S2x1 := Rect.unit (s := S2x1) ![0, 0] S2x1.size inb_S2x1_S2x1_0_0
abbrev r0_o : Rect S1x320000 := Rect.unit (s := S1x320000) ![0, 0] S1x320000.size inb_S1x320000_S1x320000_0_0

/-- What the body leaves in the output staging buffer: its one whole-buffer store of the clause values computed
    from the gathered block and the sign column. -/
def out0_2 (x0 : Vec F S2x320000 .f32) (x1 : Vec F S2x1 .f32) : Vec F S1x320000 .f32 :=
  View.canon [⟨r0_o, k0_pay1 (View.ld x0 r0_g) (View.ld x1 r0_s)⟩]

/-- The one store covers the buffer. -/
theorem cover0_2 (p0 : Vec F S1x320000 .f32) (y : S1x320000.Idx) :
    ∃ pc ∈ ([⟨r0_o, p0⟩] : List (View.Piece (Elt F) S1x320000 .f32)), y ∈ pc.1.set :=
  View.cover_of_tiled [⟨r0_o, p0⟩] S1x320000.size (by rfl) y

set_option maxHeartbeats 1000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S2x320000 .f32) (harg1 : arg1.IsWhole) (arg2 : Memref sig .tc .vmem S2x1 .f32) (harg2 : arg2.IsWhole) (arg3 : Memref sig .tc .vmem S1x320000 .f32) (harg3 : arg3.IsWhole)
    (x0 : Vec F S2x320000 .f32) (x1 : Vec F S2x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__eval_kernel i arg1 harg1 arg2 harg2 arg3 harg3) K := by
  simp only [cc0__eval_kernel_eq_skeleton]; unfold cc0__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer still at its block and the output's at `out0_2` of the two input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the clause evaluation of formula 1 (arity 3), at the entry contents `V`

A grid point `t` sees the `3 × 240000` block of gathered atom values whose columns are cliques `t·240000 … (t+1)·240000 - 1`,
the whole `3 × 1` sign column, and writes the `1 × 240000` block of clause values of those cliques. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered-values window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The sign column's staging buffer holds the column at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes whole staging buffers. -/
abbrev r1_g : Rect S3x240000 := Rect.unit (s := S3x240000) ![0, 0] S3x240000.size inb_S3x240000_S3x240000_0_0
abbrev r1_s : Rect S3x1 := Rect.unit (s := S3x1) ![0, 0] S3x1.size inb_S3x1_S3x1_0_0
abbrev r1_o : Rect S1x240000 := Rect.unit (s := S1x240000) ![0, 0] S1x240000.size inb_S1x240000_S1x240000_0_0

/-- What the body leaves in the output staging buffer: its one whole-buffer store of the clause values computed
    from the gathered block and the sign column. -/
def out1_2 (x0 : Vec F S3x240000 .f32) (x1 : Vec F S3x1 .f32) : Vec F S1x240000 .f32 :=
  View.canon [⟨r1_o, k1_pay1 (View.ld x0 r1_g) (View.ld x1 r1_s)⟩]

/-- The one store covers the buffer. -/
theorem cover1_2 (p0 : Vec F S1x240000 .f32) (y : S1x240000.Idx) :
    ∃ pc ∈ ([⟨r1_o, p0⟩] : List (View.Piece (Elt F) S1x240000 .f32)), y ∈ pc.1.set :=
  View.cover_of_tiled [⟨r1_o, p0⟩] S1x240000.size (by rfl) y

set_option maxHeartbeats 1000000 in
/-- The body on whole staging memrefs — the inputs' at contents `x0`, `x1`, the output's at anything — runs to the
    continuation with the inputs' as they were and the output's at `out1_2 x0 x1`. -/
theorem sound_kernel1 (c : Dev nD) (E : Set ℕ) (i : grid1.Coords) (arg1 : Memref sig .tc .vmem S3x240000 .f32) (harg1 : arg1.IsWhole) (arg2 : Memref sig .tc .vmem S3x1 .f32) (harg2 : arg2.IsWhole) (arg3 : Memref sig .tc .vmem S1x240000 .f32) (harg3 : arg3.IsWhole)
    (x0 : Vec F S3x240000 .f32) (x1 : Vec F S3x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__eval_kernel i arg1 harg1 arg2 harg2 arg3 harg3) K := by
  simp only [cc1__eval_kernel_eq_skeleton]; unfold cc1__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer still at its block and the output's at `out1_2` of the two input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the clause evaluation of formula 2 (arity 4), at the entry contents `V`

A grid point `t` sees the `4 × 160000` block of gathered atom values whose columns are cliques `t·160000 … (t+1)·160000 - 1`,
the whole `4 × 1` sign column, and writes the `1 × 160000` block of clause values of those cliques. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The gathered-values window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The sign column's staging buffer holds the column at every point: fetched once, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes whole staging buffers. -/
abbrev r2_g : Rect S4x160000 := Rect.unit (s := S4x160000) ![0, 0] S4x160000.size inb_S4x160000_S4x160000_0_0
abbrev r2_s : Rect S4x1 := Rect.unit (s := S4x1) ![0, 0] S4x1.size inb_S4x1_S4x1_0_0
abbrev r2_o : Rect S1x160000 := Rect.unit (s := S1x160000) ![0, 0] S1x160000.size inb_S1x160000_S1x160000_0_0

/-- What the body leaves in the output staging buffer: its one whole-buffer store of the clause values computed
    from the gathered block and the sign column. -/
def out2_2 (x0 : Vec F S4x160000 .f32) (x1 : Vec F S4x1 .f32) : Vec F S1x160000 .f32 :=
  View.canon [⟨r2_o, k2_pay1 (View.ld x0 r2_g) (View.ld x1 r2_s)⟩]

/-- The one store covers the buffer. -/
theorem cover2_2 (p0 : Vec F S1x160000 .f32) (y : S1x160000.Idx) :
    ∃ pc ∈ ([⟨r2_o, p0⟩] : List (View.Piece (Elt F) S1x160000 .f32)), y ∈ pc.1.set :=
  View.cover_of_tiled [⟨r2_o, p0⟩] S1x160000.size (by rfl) y

set_option maxHeartbeats 1000000 in
/-- The body on whole staging memrefs — the inputs' at contents `x0`, `x1`, the output's at anything — runs to the
    continuation with the inputs' as they were and the output's at `out2_2 x0 x1`. -/
theorem sound_kernel2 (c : Dev nD) (E : Set ℕ) (i : grid2.Coords) (arg1 : Memref sig .tc .vmem S4x160000 .f32) (harg1 : arg1.IsWhole) (arg2 : Memref sig .tc .vmem S4x1 .f32) (harg2 : arg2.IsWhole) (arg3 : Memref sig .tc .vmem S1x160000 .f32) (harg3 : arg3.IsWhole)
    (x0 : Vec F S4x160000 .f32) (x1 : Vec F S4x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__eval_kernel i arg1 harg1 arg2 harg2 arg3 harg3) K := by
  simp only [cc2__eval_kernel_eq_skeleton]; unfold cc2__eval_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer still at its block and the output's at `out2_2` of the two input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

/-! # The run: the buffer contents at each boundary between items, a fold through the program -/

/-- Core `c`'s buffers at launch. -/
abbrev W0 : Dev nD → Valuation τ sig (Elt F) := fun c b => (s₀ m ρ).mem ((c : Dev nD), b)

/-- After the host operations before region 0: region 0's entry contents. -/
abbrev W1 : Dev nD → Valuation τ sig (Elt F) := fun c => StableHlo.after hostOps0 (W0 m ρ c)
/-- The same, read at the TensorCore's references. -/
abbrev U1 : (c : Dev nD) → (b : Ref sig .tc) → Buf (Elt F) ((c : Thread nD τ).loc b) := fun c b => W1 m ρ c b
/-- At region 0's exit: its arrays at what the pipeline leaves (the inputs as entered, the output's blocks written back),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- No host operation before region 0 writes `b`: it is as the stretch found it. -/
theorem W1_keep (c : Dev nD) (b : Ref sig .tc) (h : b ∉ (hostOps0_W : List (Ref sig .tc))) : W1 m ρ c b = W0 m ρ c b :=
  StableHlo.after_of_writes_sub hostOps0 _ hostOps0_writes h

/-- After the host operations before region 1: region 1's entry contents. -/
abbrev W3 : Dev nD → Valuation τ sig (Elt F) := fun c => StableHlo.after hostOps1 (W2 m ρ c)
/-- The same, read at the TensorCore's references. -/
abbrev U3 : (c : Dev nD) → (b : Ref sig .tc) → Buf (Elt F) ((c : Thread nD τ).loc b) := fun c b => W3 m ρ c b
/-- At region 1's exit: its arrays at what the pipeline leaves (the inputs as entered, the output's blocks written back),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- No host operation before region 1 writes `b`: it is as the stretch found it. -/
theorem W3_keep (c : Dev nD) (b : Ref sig .tc) (h : b ∉ (hostOps1_W : List (Ref sig .tc))) : W3 m ρ c b = W2 m ρ c b :=
  StableHlo.after_of_writes_sub hostOps1 _ hostOps1_writes h

/-- After the host operations before region 2: region 2's entry contents. -/
abbrev W5 : Dev nD → Valuation τ sig (Elt F) := fun c => StableHlo.after hostOps2 (W4 m ρ c)
/-- The same, read at the TensorCore's references. -/
abbrev U5 : (c : Dev nD) → (b : Ref sig .tc) → Buf (Elt F) ((c : Thread nD τ).loc b) := fun c b => W5 m ρ c b
/-- At region 2's exit: its arrays at what the pipeline leaves (the inputs as entered, the output's blocks written back),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- No host operation before region 2 writes `b`: it is as the stretch found it. -/
theorem W5_keep (c : Dev nD) (b : Ref sig .tc) (h : b ∉ (hostOps2_W : List (Ref sig .tc))) : W5 m ρ c b = W4 m ρ c b :=
  StableHlo.after_of_writes_sub hostOps2 _ hostOps2_writes h

/-- After the closing concatenation: the contents at the return. -/
abbrev W7 : Dev nD → Valuation τ sig (Elt F) := fun c => StableHlo.after hostOps3 (W6 m ρ c)
theorem W7_keep (c : Dev nD) (b : Ref sig .tc) (h : b ∉ (hostOps3_W : List (Ref sig .tc))) : W7 m ρ c b = W6 m ρ c b :=
  StableHlo.after_of_writes_sub hostOps3 _ hostOps3_writes h

/-! ### The arguments end as launched: no host operation writes one and no call has one among its arrays -/

theorem W7_main_arg0 (c : Dev nD) : W7 m ρ c main_arg0 = m ((c : Thread nD τ).loc main_arg0) :=
  (W7_keep m ρ c main_arg0 (by decide)).trans <| (W6_of_ne m ρ c main_arg0 (by decide)).trans <| (W5_keep m ρ c main_arg0 (by decide)).trans <|
    (W4_of_ne m ρ c main_arg0 (by decide)).trans <| (W3_keep m ρ c main_arg0 (by decide)).trans <| (W2_of_ne m ρ c main_arg0 (by decide)).trans <|
    (W1_keep m ρ c main_arg0 (by decide)).trans rfl
theorem W7_main_arg1 (c : Dev nD) : W7 m ρ c main_arg1 = m ((c : Thread nD τ).loc main_arg1) :=
  (W7_keep m ρ c main_arg1 (by decide)).trans <| (W6_of_ne m ρ c main_arg1 (by decide)).trans <| (W5_keep m ρ c main_arg1 (by decide)).trans <|
    (W4_of_ne m ρ c main_arg1 (by decide)).trans <| (W3_keep m ρ c main_arg1 (by decide)).trans <| (W2_of_ne m ρ c main_arg1 (by decide)).trans <|
    (W1_keep m ρ c main_arg1 (by decide)).trans rfl
theorem W7_main_arg2 (c : Dev nD) : W7 m ρ c main_arg2 = m ((c : Thread nD τ).loc main_arg2) :=
  (W7_keep m ρ c main_arg2 (by decide)).trans <| (W6_of_ne m ρ c main_arg2 (by decide)).trans <| (W5_keep m ρ c main_arg2 (by decide)).trans <|
    (W4_of_ne m ρ c main_arg2 (by decide)).trans <| (W3_keep m ρ c main_arg2 (by decide)).trans <| (W2_of_ne m ρ c main_arg2 (by decide)).trans <|
    (W1_keep m ρ c main_arg2 (by decide)).trans rfl
theorem W7_main_arg3 (c : Dev nD) : W7 m ρ c main_arg3 = m ((c : Thread nD τ).loc main_arg3) :=
  (W7_keep m ρ c main_arg3 (by decide)).trans <| (W6_of_ne m ρ c main_arg3 (by decide)).trans <| (W5_keep m ρ c main_arg3 (by decide)).trans <|
    (W4_of_ne m ρ c main_arg3 (by decide)).trans <| (W3_keep m ρ c main_arg3 (by decide)).trans <| (W2_of_ne m ρ c main_arg3 (by decide)).trans <|
    (W1_keep m ρ c main_arg3 (by decide)).trans rfl

/-! ## The proof data family and the thread state -/

/-- No call has a prefetched table. -/
abbrev admK : (p : Fin 3) → (pcfgs (F := F) p).Adm := fun p => (cfgs p).toPCfg_adm
/-- Every call's proof data, each at its region's entry contents. -/
def pdats : (p : Fin 3) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The calls as segments -/

-- a library lemma stated over the pinned configuration unifies with the printed one only when unification may unfold
-- plain definitions in a metavariable's type
set_option backward.isDefEq.respectTransparency.types false in
/-- Region 0 over the thread state: entered with every unscoped buffer at `W1`, left with them at `W2`. Its arrays are
    split out of the unscoped buffers on entry and put back at the exit contents; the generator register goes into the
    class invariant and comes back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays are
    split out of the unscoped buffers on entry and put back at the exit contents; the generator register goes into the
    class invariant and comes back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays are
    split out of the unscoped buffers on entry and put back at the exit contents; the generator register goes into the
    class invariant and comes back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsK : List (Pipeline.Seg (pcfgs (F := F)) admK (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program IS the run of the segments. -/
theorem main_run (c : Dev nD) : main (F := F) c = Pipeline.Seg.run (segsK m ρ) := (main_chain c).trans (by chain_rfl)

set_option backward.isDefEq.respectTransparency.types false in
/-- THE RUN: from any memory with zero counters every weakly fair execution of the program terminates, nothing faulting,
    and in every final state each unscoped buffer of core `c` holds `W7 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admK (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: the run, read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.KernelIdeal.Run

end
-- ==== Proof.Clause.lean ====
/-
  Łukasiewicz clause evaluation over a table of atom values, stated once as a function of the argument arrays.

  A table `x` of 2,000,000 atom truth values (one row), and three arrays of grounding indices, one per formula:
  8,000,000 cliques of arity 2, 6,000,000 of arity 3, 4,000,000 of arity 4. A grounding index word is read as
  numpy reads it: a negative word counts from the end of the table, and the result is clamped into the table.
  Each position of a clause carries a fixed sign; a positive literal is the atom's value `g`, a negated one is
  `1 - g`. A clause is the strong disjunction `min 1 (Σ literals)`. The result row lists the clause values of the
  three formulas one after the other: entries 0 … 7,999,999, then 8,000,000 … 13,999,999, then the rest.

  The one algebraic fact both programs meet at: with `s = 1` for a positive and `s = -1` for a negated position,
  `1/2 + s · (g - 1/2)` is the literal, on every extended real `g` (so no finiteness is needed anywhere).
-/
import Idealize.ShloMosaic.PureOps.Ideal
import Idealize.ShloMosaic.Lib.ValueIdx

noncomputable section

open scoped BigOperators

namespace Cert.Clause

open Idealize.ShloMosaic Idealize.ShloMosaic.ValueIdx

/-- An index word as numpy reads it: a negative word counts from the end of the 2,000,000-entry table. -/
def wrap (v : BitVec 32) : BitVec 32 :=
  Scalar.select (IntOp.cmpi .slt v 0#32) (IntOp.addi v 2000000#32) v

/-- The table position an index word reads: the wrapped word, signed, clamped into the table. -/
def pos (v : BitVec 32) : Fin 2000000 := ⟨min (wrap v).toInt.toNat (2000000 - 1), by omega⟩

/-- The atom value a grounding index word picks from the one-row table. -/
def atom (x : (⟨2, ![1, 2000000]⟩ : Shape).Idx → EReal) (v : BitVec 32) : EReal := x (ix2 0 (pos v))

/-- A literal: the atom's value at a positive position, its Łukasiewicz negation at a negated one. -/
def lit (p : Bool) (g : EReal) : EReal := if p then g else 1 - g

/-- A clause of arity `a`: the strong disjunction of its literals. -/
def clause {a : ℕ} (sg : Fin a → Bool) (gs : Fin a → EReal) : EReal := min 1 (∑ j, lit (sg j) (gs j))

/-- The signs of formula 0 (arity 2): `x ∨ ¬y`. -/
def sg0 : Fin 2 → Bool := ![true, false]
/-- The signs of formula 1 (arity 3): `x ∨ y ∨ ¬z`. -/
def sg1 : Fin 3 → Bool := ![true, true, false]
/-- The signs of formula 2 (arity 4): `¬x ∨ y ∨ z ∨ ¬w`. -/
def sg2 : Fin 4 → Bool := ![false, true, true, false]

/-- Formula `k`'s clause value at clique `i`: its atoms are the table entries its `a` grounding words pick. -/
def clauseAt {n a : ℕ} (sg : Fin a → Bool) (x : (⟨2, ![1, 2000000]⟩ : Shape).Idx → EReal)
    (idx : (⟨2, ![n, a]⟩ : Shape).Idx → BitVec 32) (i : Fin n) : EReal :=
  clause sg fun j => atom x (idx (ix2 i j))

/-- THE RESULT ROW: the three formulas' clause values, one formula after the other. -/
def out (x : (⟨2, ![1, 2000000]⟩ : Shape).Idx → EReal)
    (i0 : (⟨2, ![8000000, 2]⟩ : Shape).Idx → BitVec 32) (i1 : (⟨2, ![6000000, 3]⟩ : Shape).Idx → BitVec 32)
    (i2 : (⟨2, ![4000000, 4]⟩ : Shape).Idx → BitVec 32) : (⟨2, ![1, 18000000]⟩ : Shape).Idx → EReal := fun J =>
  if h0 : (J 1).val < 8000000 then clauseAt sg0 x i0 ⟨(J 1).val, h0⟩
  else if h1 : (J 1).val < 14000000 then clauseAt sg1 x i1 ⟨(J 1).val - 8000000, by omega⟩
  else clauseAt sg2 x i2 ⟨(J 1).val - 14000000, by have := idx2_lt1 J; omega⟩

/-! ## The float words the two programs spell their constants with -/

theorem bits_one : Ideal.ofBits .f32 0x3F800000#32 = (1 : EReal) := by
  simp [Ideal.ofBits, Ideal.ieee, -EReal.coe_mul]; norm_num
theorem bits_neg_one : Ideal.ofBits .f32 0xBF800000#32 = (-1 : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num

/-! ## The algebraic law -/

/-- The sign factor of a position: `1` for a positive literal, `-1` for a negated one. -/
def sgn (p : Bool) : EReal := if p then 1 else -1

/-- `1/2 + s · (g - 1/2)` is the literal, for every extended real `g`. -/
theorem half_form (p : Bool) (g : EReal) :
    ((1 / 2 : ℝ) : EReal) + sgn p * (g - ((1 / 2 : ℝ) : EReal)) = lit p g := by
  cases p
  · -- a negated position: 1/2 + (-1)·(g - 1/2) = 1 - g
    simp only [sgn, lit, Bool.false_eq_true, if_false]
    induction g using EReal.rec with
    | bot =>
      simp
      rw [sub_eq_add_neg, EReal.neg_bot, ← EReal.coe_one, EReal.coe_add_top]
    | top => simp
    | coe r =>
      rw [show (-1 : EReal) = ((-1 : ℝ) : EReal) by simp, show (1 : EReal) = ((1 : ℝ) : EReal) by simp,
        ← EReal.coe_sub, ← EReal.coe_mul, ← EReal.coe_add, ← EReal.coe_sub]
      exact congrArg _ (by ring)
  · -- a positive position: 1/2 + 1·(g - 1/2) = g
    simp only [sgn, lit, if_true, one_mul]
    induction g using EReal.rec with
    | bot => simp
    | top => simp
    | coe r =>
      rw [← EReal.coe_sub, ← EReal.coe_add]
      exact congrArg _ (by ring)

end Cert.Clause

end
-- ==== Proof.KernelPayload.lean ====
/-
  The three clause kernels' arithmetic, read at one output entry.

  Each kernel body receives a block `x0` of gathered atom values, one row per clause position and one column per clique, and a
  column `x1` of sign factors, one per clause position. It forms `1/2 + s · (g - 1/2)` entrywise, with the sign column
  spread along the rows, adds the rows of each column, and caps the sum at one. So its value at column `q` is
  `min 1 (Σ_j (1/2 + x1[j,0] · (x0[j,q] - 1/2)))`: the statement of this module, once per arity (2, 3, 4).

  Two layout readings are proved first, for any sizes: a column `[a,1]` spread to `[a,b]` reads, at `(p, c)`, the column's
  entry `(p, 0)`; and the sum over the rows of an `[a,b]` array, read at column `q`, is `Σ_j` of the entries `(j, q)`.
-/
import proofs.«173380_j75831942578505_1_alg».proof.Proof.Clause
import proofs.«173380_j75831942578505_1_alg».proof.Proof.Gen.KernelIdeal.Skeleton
import Idealize.ShloMosaic.Lib.ValueLayout
import Idealize.ShloMosaic.PureOps.Ideal.Laws

noncomputable section

open scoped BigOperators

namespace Cert.KernelIdeal.Ops

open Cert.KernelIdeal Cert.KernelIdeal.Gen Idealize.ShloMosaic Idealize.ShloMosaic.ValueIdx Idealize.ShloMosaic.TcCoe

/-! ## Two layout readings, at any sizes -/

/-- A column `[a, 1]` spread along the rows to `[a, b]` reads, at `(p, c)`, the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of an `[a, b]` array (accumulator word zero), read at column `q`: `Σ_j` of the entries `(j, q)`. -/
theorem rowSum_ab_b_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ j : Fin a, src (ix2 j q) := by
  refine (Ideal.multiReduction_add_single src 0x00000000#32 h hφ hacc (ix1 q)).trans ?_
  refine Finset.sum_congr rfl fun k _ => congrArg src ?_
  funext d
  match d with
  | ⟨0, _⟩ => exact Fin.ext rfl
  | ⟨1, _⟩ => exact Fin.ext rfl

/-! ## The kernels' values at an entry -/

/-- Arity 2: the kernel's value at column `q` is the capped sum, over the two clause positions, of
    `1/2 + s_j · (g_j - 1/2)`. -/
theorem pay0_apply (x0 : Vec Ideal S2x320000 .f32) (x1 : Vec Ideal S2x1 .f32) (q : Fin 320000) :
    Gen.k0_pay1 (F := Ideal) x0 x1 (ix2 0 q)
      = min 1 (∑ j : Fin 2, (((1/2 : ℝ) : EReal) + x1 (ix2 j 0) * (x0 (ix2 j q) - ((1/2 : ℝ) : EReal)))) := by
  unfold Gen.k0_pay1
  rw [minimumf_apply, broadcast_apply, shapeCast_a_1a_apply, rowSum_ab_b_apply]
  simp only [addf_apply, mulf_apply, subf_apply, broadcast_apply, broadcastTo_a1_ab_apply, shapeCast_self]
  rw [Ideal.ofBits_def, Ideal.ofBits_def, Cert.Clause.bits_one, Cert.Clause.bits_half]

/-- Arity 3: the kernel's value at column `q` is the capped sum, over the three clause positions, of
    `1/2 + s_j · (g_j - 1/2)`. -/
theorem pay1_apply (x0 : Vec Ideal S3x240000 .f32) (x1 : Vec Ideal S3x1 .f32) (q : Fin 240000) :
    Gen.k1_pay1 (F := Ideal) x0 x1 (ix2 0 q)
      = min 1 (∑ j : Fin 3, (((1/2 : ℝ) : EReal) + x1 (ix2 j 0) * (x0 (ix2 j q) - ((1/2 : ℝ) : EReal)))) := by
  unfold Gen.k1_pay1
  rw [minimumf_apply, broadcast_apply, shapeCast_a_1a_apply, rowSum_ab_b_apply]
  simp only [addf_apply, mulf_apply, subf_apply, broadcast_apply, broadcastTo_a1_ab_apply, shapeCast_self]
  rw [Ideal.ofBits_def, Ideal.ofBits_def, Cert.Clause.bits_one, Cert.Clause.bits_half]

/-- Arity 4: the kernel's value at column `q` is the capped sum, over the four clause positions, of
    `1/2 + s_j · (g_j - 1/2)`. -/
theorem pay2_apply (x0 : Vec Ideal S4x160000 .f32) (x1 : Vec Ideal S4x1 .f32) (q : Fin 160000) :
    Gen.k2_pay1 (F := Ideal) x0 x1 (ix2 0 q)
      = min 1 (∑ j : Fin 4, (((1/2 : ℝ) : EReal) + x1 (ix2 j 0) * (x0 (ix2 j q) - ((1/2 : ℝ) : EReal)))) := by
  unfold Gen.k2_pay1
  rw [minimumf_apply, broadcast_apply, shapeCast_a_1a_apply, rowSum_ab_b_apply]
  simp only [addf_apply, mulf_apply, subf_apply, broadcast_apply, broadcastTo_a1_ab_apply, shapeCast_self]
  rw [Ideal.ofBits_def, Ideal.ofBits_def, Cert.Clause.bits_one, Cert.Clause.bits_half]

end Cert.KernelIdeal.Ops

end
-- ==== Proof.KernelIdealBlocks.lean ====
/-
  From blocks to arrays: what each of the three clause-evaluation calls leaves in its output array, at the exact-real
  instance, as ONE function of the two arrays the call reads.

  Each call runs 25 grid points. Point `t` writes back the `1 × tm` block of columns `t·tm … (t+1)·tm - 1`, holding
  `min 1 (Σ_j (1/2 + s_j · (g_{j,r} - 1/2)))` for each of its columns `r`, where `g` is the gathered-values array and
  `s` the sign column. The blocks tile the row, so the array after the call is that function at every column.
-/
import proofs.«173380_j75831942578505_1_alg».proof.Proof.KernelIdealRun
import proofs.«173380_j75831942578505_1_alg».proof.Proof.KernelPayload
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Run

-- the TensorCore's buffer contents when a call is entered
variable (V : (c : Dev nD) → (b : Ref sig .tc) → Buf (Elt Ideal) ((c : Thread nD τ).loc b))

theorem hz : (![0, 0] : Fin 2 → Nat) = fun _ => 0 := funext fun a => by fin_cases a <;> rfl

/-! ## Formula 0 (arity 2): the call's output array after the run -/

/-- The clause values of formula 0 from the call's two entry arrays: the gathered atom values `g` (`2 × 8000000`,
    one column per clique) and the sign column `s`. -/
def G0 (g : S2x8000000.Idx → EReal) (s : S2x1.Idx → EReal) : S1x8000000.Idx → EReal :=
  fun i => min 1 (∑ j : Fin 2, (((1 / 2 : ℝ) : EReal) + s (ix2 j 0) * (g (ix2 j (i 1)) - ((1 / 2 : ℝ) : EReal))))

/-- The printed index maps over the grid: point `t` takes column block `t` of the gathered values, the whole sign
    column, and writes column block `t` of the output. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- Every column block of the output is some point's. -/
theorem idx_onto0 : ∀ q1 : Fin 25, ∃ t : Fin cfg0.N, win0_2.index t = ![0, q1.val] :=
  (by decide +kernel : ∀ q1 : Fin 25, ∃ t : Fin grid0.N, win0_2.index t = ![0, q1.val])

/-- The gathered-values block of point `t` at row `j`, column `q` is the array's entry at column `t·320000 + q`. -/
theorem blk0_g (c : Dev nD) (t : Fin cfg0.N) (j : Fin 2) (q : Fin 320000) (h : t.val * 320000 + q.val < 8000000) :
    iblk0 V c 0 t (ix2 j q) = V c main_v8 (ix2 j ⟨t.val * 320000 + q.val, h⟩) := by
  obtain ⟨e0, e1, -⟩ := idx_facts0 t
  show V c main_v8 (((cfg0.win 0).blk t).view.emb (ix2 j q)) = _
  refine congrArg _ ?_
  funext a; apply Fin.ext
  match a with
  | ⟨0, _⟩ => show win0_0.index t (0 : Fin 2) * 2 + 1 * j.val = j.val; omega
  | ⟨1, _⟩ => show win0_0.index t (1 : Fin 2) * 320000 + 1 * q.val = t.val * 320000 + q.val; omega

/-- The sign-column block of any point is the column. -/
theorem blk0_s (c : Dev nD) (t : Fin cfg0.N) (j : Fin 2) :
    iblk0 V c 1 t (ix2 j 0) = V c main_v9 (ix2 j 0) := by
  obtain ⟨-, -, e2, e3, -⟩ := idx_facts0 t
  show V c main_v9 (((cfg0.win 1).blk t).view.emb (ix2 j 0)) = _
  refine congrArg _ ?_
  funext a; apply Fin.ext
  match a with
  | ⟨0, _⟩ => show win0_1.index t (0 : Fin 2) * 2 + 1 * j.val = j.val; omega
  | ⟨1, _⟩ => show win0_1.index t (1 : Fin 2) * 1 + 1 * 0 = 0; omega

/-- WHAT POINT `t` WRITES BACK is column block `t` of `G0` of the entry arrays. -/
theorem flushed0_eq (c : Dev nD) (t : Fin cfg0.N) :
    (dat0 V c).flushed 2 t = ((cfg0.win 2).blk t).view.read (Elt Ideal) (G0 (V c main_v8) (V c main_v9)) := by
  show (cfg0.win 2).cut (grid0.coords t) ((dat0 V c).after 2 t) = _
  rw [after0_2]
  unfold out0_2
  rw [View.canon_unit_zero hz]
  simp only [View.ld_unit_zero (S := S2x320000) hz, View.ld_unit_zero (S := S2x1) hz]
  have ht : t.val < 25 := lt_of_lt_of_eq t.isLt N_0
  obtain ⟨-, -, -, -, e4, e5⟩ := idx_facts0 t
  funext y
  obtain ⟨p, q, rfl⟩ : ∃ (p : Fin 1) (q : Fin 320000), y = ix2 p q := ⟨y 0, y 1, eq_ix2 y⟩
  obtain rfl : p = 0 := Subsingleton.elim _ _
  have hq : t.val * 320000 + q.val < 8000000 := by have := q.isLt; omega
  refine (Ops.pay0_apply _ _ q).trans ?_
  have hemb : (((cfg0.win 2).blk t).view.emb (ix2 (0 : Fin 1) q)) = (ix2 (0 : Fin 1) (⟨t.val * 320000 + q.val, hq⟩ : Fin 8000000) : S1x8000000.Idx) := by
    funext a; apply Fin.ext
    match a with
    | ⟨0, _⟩ => show win0_2.index t (0 : Fin 2) * 1 + 1 * 0 = 0; omega
    | ⟨1, _⟩ => show win0_2.index t (1 : Fin 2) * 320000 + 1 * q.val = t.val * 320000 + q.val; omega
  show _ = G0 (V c main_v8) (V c main_v9) (((cfg0.win 2).blk t).view.emb (ix2 (0 : Fin 1) q))
  rw [hemb]
  unfold G0
  refine congrArg _ (Finset.sum_congr rfl fun j _ => ?_)
  rw [blk0_g V c t j q hq, blk0_s V c t j]

/-- An index of the output array is in point `t`'s block iff each coordinate is in the block's range on its axis. -/
theorem mem_blk0 (t : Fin cfg0.N) (i : S1x8000000.Idx) :
    i ∈ ((cfg0.win 2).blk t).view.set ↔ ∀ a : Fin 2, win0_2.index t a * S1x320000.size a ≤ (i a).val ∧ (i a).val < win0_2.index t a * S1x320000.size a + S1x320000.size a := by
  show i ∈ ((View.whole main_v10).slice (win0_2.rect t)).set ↔ _
  rw [View.set_slice_whole, Rect.mem_set_unit]
  exact Iff.rfl

/-- The 25 column blocks cover the output array: column `r` is in block `r / 320000`. -/
theorem cover0 (i : S1x8000000.Idx) : ∃ t : Fin cfg0.N, (cfg0.win 2).flush t = true ∧ i ∈ ((cfg0.win 2).blk t).view.set := by
  have hi0 : (i 0).val < 1 := (i 0).isLt
  have hi1 : (i 1).val < 8000000 := (i 1).isLt
  obtain ⟨t, ht⟩ := idx_onto0 ⟨(i 1).val / 320000, by omega⟩
  have q0 : win0_2.index t (0 : Fin 2) = 0 := congrFun ht 0
  have q1 : win0_2.index t (1 : Fin 2) = (i 1).val / 320000 := congrFun ht 1
  refine ⟨t, flush0_2 t, ?_⟩
  rw [mem_blk0]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 320000 ≤ (i 1).val ∧ (i 1).val < win0_2.index t (1 : Fin 2) * 320000 + 320000; omega

/-- THE OUTPUT ARRAY after the call: the clause values of every clique, from the entry arrays. -/
theorem final0 (c : Dev nD) : (dat0 V c).arrAt 2 cfg0.N = G0 (V c main_v8) (V c main_v9) :=
  (dat0 V c).arrAt_eq_of_cover 2 _ (fun t _ => flushed0_eq V c t) cover0

/-! ## Formula 1 (arity 3): the call's output array after the run -/

/-- The clause values of formula 1 from the call's two entry arrays: the gathered atom values `g` (`3 × 6000000`,
    one column per clique) and the sign column `s`. -/
def G1 (g : S3x6000000.Idx → EReal) (s : S3x1.Idx → EReal) : S1x6000000.Idx → EReal :=
  fun i => min 1 (∑ j : Fin 3, (((1 / 2 : ℝ) : EReal) + s (ix2 j 0) * (g (ix2 j (i 1)) - ((1 / 2 : ℝ) : EReal))))

/-- The printed index maps over the grid: point `t` takes column block `t` of the gathered values, the whole sign
    column, and writes column block `t` of the output. -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

/-- Every column block of the output is some point's. -/
theorem idx_onto1 : ∀ q1 : Fin 25, ∃ t : Fin cfg1.N, win1_2.index t = ![0, q1.val] :=
  (by decide +kernel : ∀ q1 : Fin 25, ∃ t : Fin grid1.N, win1_2.index t = ![0, q1.val])

/-- The gathered-values block of point `t` at row `j`, column `q` is the array's entry at column `t·240000 + q`. -/
theorem blk1_g (c : Dev nD) (t : Fin cfg1.N) (j : Fin 3) (q : Fin 240000) (h : t.val * 240000 + q.val < 6000000) :
    iblk1 V c 0 t (ix2 j q) = V c main_v18 (ix2 j ⟨t.val * 240000 + q.val, h⟩) := by
  obtain ⟨e0, e1, -⟩ := idx_facts1 t
  show V c main_v18 (((cfg1.win 0).blk t).view.emb (ix2 j q)) = _
  refine congrArg _ ?_
  funext a; apply Fin.ext
  match a with
  | ⟨0, _⟩ => show win1_0.index t (0 : Fin 2) * 3 + 1 * j.val = j.val; omega
  | ⟨1, _⟩ => show win1_0.index t (1 : Fin 2) * 240000 + 1 * q.val = t.val * 240000 + q.val; omega

/-- The sign-column block of any point is the column. -/
theorem blk1_s (c : Dev nD) (t : Fin cfg1.N) (j : Fin 3) :
    iblk1 V c 1 t (ix2 j 0) = V c main_v19 (ix2 j 0) := by
  obtain ⟨-, -, e2, e3, -⟩ := idx_facts1 t
  show V c main_v19 (((cfg1.win 1).blk t).view.emb (ix2 j 0)) = _
  refine congrArg _ ?_
  funext a; apply Fin.ext
  match a with
  | ⟨0, _⟩ => show win1_1.index t (0 : Fin 2) * 3 + 1 * j.val = j.val; omega
  | ⟨1, _⟩ => show win1_1.index t (1 : Fin 2) * 1 + 1 * 0 = 0; omega

/-- WHAT POINT `t` WRITES BACK is column block `t` of `G1` of the entry arrays. -/
theorem flushed1_eq (c : Dev nD) (t : Fin cfg1.N) :
    (dat1 V c).flushed 2 t = ((cfg1.win 2).blk t).view.read (Elt Ideal) (G1 (V c main_v18) (V c main_v19)) := by
  show (cfg1.win 2).cut (grid1.coords t) ((dat1 V c).after 2 t) = _
  rw [after1_2]
  unfold out1_2
  rw [View.canon_unit_zero hz]
  simp only [View.ld_unit_zero (S := S3x240000) hz, View.ld_unit_zero (S := S3x1) hz]
  have ht : t.val < 25 := lt_of_lt_of_eq t.isLt N_1
  obtain ⟨-, -, -, -, e4, e5⟩ := idx_facts1 t
  funext y
  obtain ⟨p, q, rfl⟩ : ∃ (p : Fin 1) (q : Fin 240000), y = ix2 p q := ⟨y 0, y 1, eq_ix2 y⟩
  obtain rfl : p = 0 := Subsingleton.elim _ _
  have hq : t.val * 240000 + q.val < 6000000 := by have := q.isLt; omega
  refine (Ops.pay1_apply _ _ q).trans ?_
  have hemb : (((cfg1.win 2).blk t).view.emb (ix2 (0 : Fin 1) q)) = (ix2 (0 : Fin 1) (⟨t.val * 240000 + q.val, hq⟩ : Fin 6000000) : S1x6000000.Idx) := by
    funext a; apply Fin.ext
    match a with
    | ⟨0, _⟩ => show win1_2.index t (0 : Fin 2) * 1 + 1 * 0 = 0; omega
    | ⟨1, _⟩ => show win1_2.index t (1 : Fin 2) * 240000 + 1 * q.val = t.val * 240000 + q.val; omega
  show _ = G1 (V c main_v18) (V c main_v19) (((cfg1.win 2).blk t).view.emb (ix2 (0 : Fin 1) q))
  rw [hemb]
  unfold G1
  refine congrArg _ (Finset.sum_congr rfl fun j _ => ?_)
  rw [blk1_g V c t j q hq, blk1_s V c t j]

/-- An index of the output array is in point `t`'s block iff each coordinate is in the block's range on its axis. -/
theorem mem_blk1 (t : Fin cfg1.N) (i : S1x6000000.Idx) :
    i ∈ ((cfg1.win 2).blk t).view.set ↔ ∀ a : Fin 2, win1_2.index t a * S1x240000.size a ≤ (i a).val ∧ (i a).val < win1_2.index t a * S1x240000.size a + S1x240000.size a := by
  show i ∈ ((View.whole main_v20).slice (win1_2.rect t)).set ↔ _
  rw [View.set_slice_whole, Rect.mem_set_unit]
  exact Iff.rfl

/-- The 25 column blocks cover the output array: column `r` is in block `r / 240000`. -/
theorem cover1 (i : S1x6000000.Idx) : ∃ t : Fin cfg1.N, (cfg1.win 2).flush t = true ∧ i ∈ ((cfg1.win 2).blk t).view.set := by
  have hi0 : (i 0).val < 1 := (i 0).isLt
  have hi1 : (i 1).val < 6000000 := (i 1).isLt
  obtain ⟨t, ht⟩ := idx_onto1 ⟨(i 1).val / 240000, by omega⟩
  have q0 : win1_2.index t (0 : Fin 2) = 0 := congrFun ht 0
  have q1 : win1_2.index t (1 : Fin 2) = (i 1).val / 240000 := congrFun ht 1
  refine ⟨t, flush1_2 t, ?_⟩
  rw [mem_blk1]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 240000 ≤ (i 1).val ∧ (i 1).val < win1_2.index t (1 : Fin 2) * 240000 + 240000; omega

/-- THE OUTPUT ARRAY after the call: the clause values of every clique, from the entry arrays. -/
theorem final1 (c : Dev nD) : (dat1 V c).arrAt 2 cfg1.N = G1 (V c main_v18) (V c main_v19) :=
  (dat1 V c).arrAt_eq_of_cover 2 _ (fun t _ => flushed1_eq V c t) cover1

/-! ## Formula 2 (arity 4): the call's output array after the run -/

/-- The clause values of formula 2 from the call's two entry arrays: the gathered atom values `g` (`4 × 4000000`,
    one column per clique) and the sign column `s`. -/
def G2 (g : S4x4000000.Idx → EReal) (s : S4x1.Idx → EReal) : S1x4000000.Idx → EReal :=
  fun i => min 1 (∑ j : Fin 4, (((1 / 2 : ℝ) : EReal) + s (ix2 j 0) * (g (ix2 j (i 1)) - ((1 / 2 : ℝ) : EReal))))

/-- The printed index maps over the grid: point `t` takes column block `t` of the gathered values, the whole sign
    column, and writes column block `t` of the output. -/
theorem idx_facts2 : ∀ t : Fin cfg2.N, win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = t.val :=
  (by decide +kernel : ∀ t : Fin grid2.N, _)

/-- Every column block of the output is some point's. -/
theorem idx_onto2 : ∀ q1 : Fin 25, ∃ t : Fin cfg2.N, win2_2.index t = ![0, q1.val] :=
  (by decide +kernel : ∀ q1 : Fin 25, ∃ t : Fin grid2.N, win2_2.index t = ![0, q1.val])

/-- The gathered-values block of point `t` at row `j`, column `q` is the array's entry at column `t·160000 + q`. -/
theorem blk2_g (c : Dev nD) (t : Fin cfg2.N) (j : Fin 4) (q : Fin 160000) (h : t.val * 160000 + q.val < 4000000) :
    iblk2 V c 0 t (ix2 j q) = V c main_v28 (ix2 j ⟨t.val * 160000 + q.val, h⟩) := by
  obtain ⟨e0, e1, -⟩ := idx_facts2 t
  show V c main_v28 (((cfg2.win 0).blk t).view.emb (ix2 j q)) = _
  refine congrArg _ ?_
  funext a; apply Fin.ext
  match a with
  | ⟨0, _⟩ => show win2_0.index t (0 : Fin 2) * 4 + 1 * j.val = j.val; omega
  | ⟨1, _⟩ => show win2_0.index t (1 : Fin 2) * 160000 + 1 * q.val = t.val * 160000 + q.val; omega

/-- The sign-column block of any point is the column. -/
theorem blk2_s (c : Dev nD) (t : Fin cfg2.N) (j : Fin 4) :
    iblk2 V c 1 t (ix2 j 0) = V c main_v29 (ix2 j 0) := by
  obtain ⟨-, -, e2, e3, -⟩ := idx_facts2 t
  show V c main_v29 (((cfg2.win 1).blk t).view.emb (ix2 j 0)) = _
  refine congrArg _ ?_
  funext a; apply Fin.ext
  match a with
  | ⟨0, _⟩ => show win2_1.index t (0 : Fin 2) * 4 + 1 * j.val = j.val; omega
  | ⟨1, _⟩ => show win2_1.index t (1 : Fin 2) * 1 + 1 * 0 = 0; omega

/-- WHAT POINT `t` WRITES BACK is column block `t` of `G2` of the entry arrays. -/
theorem flushed2_eq (c : Dev nD) (t : Fin cfg2.N) :
    (dat2 V c).flushed 2 t = ((cfg2.win 2).blk t).view.read (Elt Ideal) (G2 (V c main_v28) (V c main_v29)) := by
  show (cfg2.win 2).cut (grid2.coords t) ((dat2 V c).after 2 t) = _
  rw [after2_2]
  unfold out2_2
  rw [View.canon_unit_zero hz]
  simp only [View.ld_unit_zero (S := S4x160000) hz, View.ld_unit_zero (S := S4x1) hz]
  have ht : t.val < 25 := lt_of_lt_of_eq t.isLt N_2
  obtain ⟨-, -, -, -, e4, e5⟩ := idx_facts2 t
  funext y
  obtain ⟨p, q, rfl⟩ : ∃ (p : Fin 1) (q : Fin 160000), y = ix2 p q := ⟨y 0, y 1, eq_ix2 y⟩
  obtain rfl : p = 0 := Subsingleton.elim _ _
  have hq : t.val * 160000 + q.val < 4000000 := by have := q.isLt; omega
  refine (Ops.pay2_apply _ _ q).trans ?_
  have hemb : (((cfg2.win 2).blk t).view.emb (ix2 (0 : Fin 1) q)) = (ix2 (0 : Fin 1) (⟨t.val * 160000 + q.val, hq⟩ : Fin 4000000) : S1x4000000.Idx) := by
    funext a; apply Fin.ext
    match a with
    | ⟨0, _⟩ => show win2_2.index t (0 : Fin 2) * 1 + 1 * 0 = 0; omega
    | ⟨1, _⟩ => show win2_2.index t (1 : Fin 2) * 160000 + 1 * q.val = t.val * 160000 + q.val; omega
  show _ = G2 (V c main_v28) (V c main_v29) (((cfg2.win 2).blk t).view.emb (ix2 (0 : Fin 1) q))
  rw [hemb]
  unfold G2
  refine congrArg _ (Finset.sum_congr rfl fun j _ => ?_)
  rw [blk2_g V c t j q hq, blk2_s V c t j]

/-- An index of the output array is in point `t`'s block iff each coordinate is in the block's range on its axis. -/
theorem mem_blk2 (t : Fin cfg2.N) (i : S1x4000000.Idx) :
    i ∈ ((cfg2.win 2).blk t).view.set ↔ ∀ a : Fin 2, win2_2.index t a * S1x160000.size a ≤ (i a).val ∧ (i a).val < win2_2.index t a * S1x160000.size a + S1x160000.size a := by
  show i ∈ ((View.whole main_v30).slice (win2_2.rect t)).set ↔ _
  rw [View.set_slice_whole, Rect.mem_set_unit]
  exact Iff.rfl

/-- The 25 column blocks cover the output array: column `r` is in block `r / 160000`. -/
theorem cover2 (i : S1x4000000.Idx) : ∃ t : Fin cfg2.N, (cfg2.win 2).flush t = true ∧ i ∈ ((cfg2.win 2).blk t).view.set := by
  have hi0 : (i 0).val < 1 := (i 0).isLt
  have hi1 : (i 1).val < 4000000 := (i 1).isLt
  obtain ⟨t, ht⟩ := idx_onto2 ⟨(i 1).val / 160000, by omega⟩
  have q0 : win2_2.index t (0 : Fin 2) = 0 := congrFun ht 0
  have q1 : win2_2.index t (1 : Fin 2) = (i 1).val / 160000 := congrFun ht 1
  refine ⟨t, flush2_2 t, ?_⟩
  rw [mem_blk2]
  intro a
  match a with
  | ⟨0, _⟩ => show win2_2.index t (0 : Fin 2) * 1 ≤ (i 0).val ∧ (i 0).val < win2_2.index t (0 : Fin 2) * 1 + 1; omega
  | ⟨1, _⟩ => show win2_2.index t (1 : Fin 2) * 160000 ≤ (i 1).val ∧ (i 1).val < win2_2.index t (1 : Fin 2) * 160000 + 160000; omega

/-- THE OUTPUT ARRAY after the call: the clause values of every clique, from the entry arrays. -/
theorem final2 (c : Dev nD) : (dat2 V c).arrAt 2 cfg2.N = G2 (V c main_v28) (V c main_v29) :=
  (dat2 V c).arrAt_eq_of_cover 2 _ (fun t _ => flushed2_eq V c t) cover2

end Cert.KernelIdeal.Blocks

end
-- ==== Proof.KernelHost.lean ====
/-
  The array operations between the three clause kernels, read at one entry.

  Before each kernel the program prepares that formula's two operands. The grounding indices `[n, a]` are turned to `[a, n]`;
  each index word is read as numpy reads it (a negative word has the table length 2,000,000 added); and the one-row table,
  flattened, is gathered at the words, a gather clamping the signed word into the table. So the gathered array at `(j, i)` is
  the table's entry at the position `Cert.Clause.pos` of word `(i, j)`. The sign factors are a literal vector, reshaped to a
  column. After the three kernels their rows are laid one after the other.

  Every statement is about an arbitrary assignment `V` of contents to the buffers before the stretch of operations, and says
  what one buffer holds at one entry after it.
-/
import proofs.«173380_j75831942578505_1_alg».proof.Proof.Clause
import proofs.«173380_j75831942578505_1_alg».proof.Proof.Gen.KernelIdeal.Launch
import Idealize.ShloMosaic.Lib.ValueLayout
import Idealize.ShloMosaic.Lib.StableHlo.Run

noncomputable section

open scoped BigOperators

namespace Cert.KernelIdeal.Ops

open Cert.KernelIdeal Cert.KernelIdeal.Gen Idealize.ShloMosaic Idealize.ShloMosaic.ValueIdx Idealize.ShloMosaic.TcCoe

/-! ## The gather at numpy-read index words, at any sizes -/

/-- An array `idx : [C, R]` of index words, turned to `[R, C]`, each word read as numpy reads it, and a flat table of
    2,000,000 entries gathered at the result: at `(j, i)` it is the table's entry at the position of word `(i, j)`. -/
theorem wrapGather_apply {α : Type} {R C : ℕ}
    (wf : GatherDims.WF ⟨1, ![2000000]⟩ ⟨3, ![R, C, 1]⟩ ⟨2, ![R, C]⟩ [] [0] [] [0] [] 2 ![1])
    (hb : (⟨2, ![R, C]⟩ : Shape).BroadcastsInDim ⟨3, ![R, C, 1]⟩ (![0, 1] : Fin 2 → Fin 3))
    (hz : (⟨0, ![]⟩ : Shape).BroadcastsInDim ⟨2, ![R, C]⟩ (![] : Fin 0 → Fin 2))
    (ht : (⟨2, ![C, R]⟩ : Shape).Transposes [1, 0] ⟨2, ![R, C]⟩)
    (x : (⟨1, ![2000000]⟩ : Shape).Idx → α) (idx : IVec ⟨2, ![C, R]⟩ 32) (j : Fin R) (i : Fin C) :
    Host.gather (takeDims 2000000 R C wf) x
        (broadcastInDim ⟨3, ![R, C, 1]⟩ (![0, 1] : Fin 2 → Fin 3) hb
          (select
            (cmpi .slt (transpose ⟨2, ![R, C]⟩ [1, 0] idx ht)
              (broadcastInDim ⟨2, ![R, C]⟩ (![] : Fin 0 → Fin 2) hz (constantI ⟨0, ![]⟩ 32 0#32)))
            (addi (transpose ⟨2, ![R, C]⟩ [1, 0] idx ht)
              (broadcastInDim ⟨2, ![R, C]⟩ (![] : Fin 0 → Fin 2) hz (constantI ⟨0, ![]⟩ 32 2000000#32)))
            (transpose ⟨2, ![R, C]⟩ [1, 0] idx ht)))
        (ix2 j i)
      = x (ix1 (Cert.Clause.pos (idx (ix2 i j)))) := by
  refine (gather_take_apply (by norm_num) wf x _ (ix2 j i)).trans ?_
  -- the start index of entry (j, i) is the wrapped word
  have hw : broadcastInDim ⟨3, ![R, C, 1]⟩ (![0, 1] : Fin 2 → Fin 3) hb
          (select
            (cmpi .slt (transpose ⟨2, ![R, C]⟩ [1, 0] idx ht)
              (broadcastInDim ⟨2, ![R, C]⟩ (![] : Fin 0 → Fin 2) hz (constantI ⟨0, ![]⟩ 32 0#32)))
            (addi (transpose ⟨2, ![R, C]⟩ [1, 0] idx ht)
              (broadcastInDim ⟨2, ![R, C]⟩ (![] : Fin 0 → Fin 2) hz (constantI ⟨0, ![]⟩ 32 2000000#32)))
            (transpose ⟨2, ![R, C]⟩ [1, 0] idx ht)) (takeIdx (ix2 j i))
        = Cert.Clause.wrap (idx (ix2 i j)) := by
    refine (broadcastInDim_apply _ hb _ (takeIdx (ix2 j i)) (ix2 j i) fun a => ?_).trans ?_
    · match a with
      | ⟨0, _⟩ =>
        show j.val = if R = 1 then 0 else j.val
        split
        · have := j.isLt; omega
        · rfl
      | ⟨1, _⟩ =>
        show i.val = if C = 1 then 0 else i.val
        split
        · have := i.isLt; omega
        · rfl
    · have h0 : ∀ w : BitVec 32, broadcastInDim ⟨2, ![R, C]⟩ (![] : Fin 0 → Fin 2) hz (constantI ⟨0, ![]⟩ 32 w) (ix2 j i) = w :=
        fun w => broadcastInDim_apply _ hz _ (ix2 j i) ix0 fun a => a.elim0
      show Scalar.select (IntOp.cmpi .slt (transpose ⟨2, ![R, C]⟩ [1, 0] idx ht (ix2 j i)) _) (IntOp.addi (transpose ⟨2, ![R, C]⟩ [1, 0] idx ht (ix2 j i)) _)
          (transpose ⟨2, ![R, C]⟩ [1, 0] idx ht (ix2 j i)) = _
      rw [h0, h0, transpose_ix2_apply]
      rfl
  refine congrArg (fun p : Fin 2000000 => x (ix1 p)) (Fin.ext ?_)
  exact congrArg (fun w : BitVec 32 => min w.toInt.toNat (2000000 - 1)) hw

/-- A vector `[a]` reshaped to a column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Before the first kernel -/

/-- The gathered atoms of formula 0: at `(j, i)`, the atom value that word `j` of clique `i` picks from the table. -/
theorem host0_atoms_apply (V : Valuation τ sig (Elt Ideal)) (j : Fin 2) (i : Fin 8000000) :
    (StableHlo.after (hostOps0 (F := Ideal)) V (Proc.devRef .tc main_v8) : S2x8000000.Idx → EReal) (ix2 j i)
      = Cert.Clause.atom (V (Proc.devRef .tc main_arg0) : S1x2000000.Idx → EReal)
          ((V (Proc.devRef .tc main_arg1) : S8000000x2.Idx → BitVec 32) (ix2 i j)) := by
  dsimp only [hostOps0]
  after_results
  refine (wrapGather_apply (R := 2) (C := 8000000) _ _ _ _ _ _ j i).trans ?_
  show shapeCast S2000000 (V (Proc.devRef .tc main_arg0) : S1x2000000.Idx → EReal) _ (ix1 _) = _
  rw [shapeCast_1a_a_apply]
  rfl

/-- The sign column of formula 0: at `(j, 0)`, the sign factor of clause position `j` (`+1`, `-1`). -/
theorem host0_signs_apply (V : Valuation τ sig (Elt Ideal)) (j : Fin 2) :
    (StableHlo.after (hostOps0 (F := Ideal)) V (Proc.devRef .tc main_v9) : S2x1.Idx → EReal) (ix2 j 0)
      = Cert.Clause.sgn (Cert.Clause.sg0 j) := by
  dsimp only [hostOps0]
  after_results
  show shapeCast S2x1 (fun i : S2.Idx => (FloatOps.ofBits (F := Ideal) .f32 (lit0 (S2.rowMajor i)))) _ (ix2 j 0) = _
  rw [shapeCast_a_a1_apply]
  match j with
  | ⟨0, _⟩ => exact Cert.Clause.bits_one
  | ⟨1, _⟩ => exact Cert.Clause.bits_neg_one

end Cert.KernelIdeal.Ops

end
-- ==== Proof.KernelHostRest.lean ====
/-
  The array operations between the clause kernels, read at one entry: the flattened table and the later formulas' sign
  vectors written before the first kernel; the gathered atoms and the sign column prepared before the second and the third
  kernel; and the three result rows laid one after the other at the end.

  As before, `V` is an arbitrary assignment of contents to the buffers before the stretch of operations in question.
-/
import proofs.«173380_j75831942578505_1_alg».proof.Proof.KernelHost

noncomputable section

open scoped BigOperators

namespace Cert.KernelIdeal.Ops

open Cert.KernelIdeal Cert.KernelIdeal.Gen Idealize.ShloMosaic Idealize.ShloMosaic.ValueIdx Idealize.ShloMosaic.TcCoe

/-! ## Before the first kernel: the flattened table and the other two sign vectors -/

/-- The one-row table flattened: entry `p` is the row's entry `(0, p)`. -/
theorem host0_table_apply (V : Valuation τ sig (Elt Ideal)) (p : Fin 2000000) :
    (StableHlo.after (hostOps0 (F := Ideal)) V (Proc.devRef .tc main_v0) : S2000000.Idx → EReal) (ix1 p)
      = (V (Proc.devRef .tc main_arg0) : S1x2000000.Idx → EReal) (ix2 0 p) := by
  dsimp only [hostOps0]
  after_results
  show shapeCast S2000000 (V (Proc.devRef .tc main_arg0) : S1x2000000.Idx → EReal) _ (ix1 p) = _
  rw [shapeCast_1a_a_apply]

/-- The sign vector of formula 1: entry `j` is the sign factor of clause position `j` (`+1`, `+1`, `-1`). -/
theorem host0_signs1_apply (V : Valuation τ sig (Elt Ideal)) (j : Fin 3) :
    (StableHlo.after (hostOps0 (F := Ideal)) V (Proc.devRef .tc main_cst_0) : S3.Idx → EReal) (ix1 j)
      = Cert.Clause.sgn (Cert.Clause.sg1 j) := by
  dsimp only [hostOps0]
  after_results
  match j with
  | ⟨0, _⟩ => exact Cert.Clause.bits_one
  | ⟨1, _⟩ => exact Cert.Clause.bits_one
  | ⟨2, _⟩ => exact Cert.Clause.bits_neg_one

/-- The sign vector of formula 2: entry `j` is the sign factor of clause position `j` (`-1`, `+1`, `+1`, `-1`). -/
theorem host0_signs2_apply (V : Valuation τ sig (Elt Ideal)) (j : Fin 4) :
    (StableHlo.after (hostOps0 (F := Ideal)) V (Proc.devRef .tc main_cst_1) : S4.Idx → EReal) (ix1 j)
      = Cert.Clause.sgn (Cert.Clause.sg2 j) := by
  dsimp only [hostOps0]
  after_results
  match j with
  | ⟨0, _⟩ => exact Cert.Clause.bits_neg_one
  | ⟨1, _⟩ => exact Cert.Clause.bits_one
  | ⟨2, _⟩ => exact Cert.Clause.bits_one
  | ⟨3, _⟩ => exact Cert.Clause.bits_neg_one

/-! ## Before the second kernel -/

/-- The gathered atoms of formula 1: at `(j, i)`, the flattened table's entry at the position that word `j` of clique `i`
    picks. -/
theorem host1_atoms_apply (V : Valuation τ sig (Elt Ideal)) (j : Fin 3) (i : Fin 6000000) :
    (StableHlo.after (hostOps1 (F := Ideal)) V (Proc.devRef .tc main_v18) : S3x6000000.Idx → EReal) (ix2 j i)
      = (V (Proc.devRef .tc main_v0) : S2000000.Idx → EReal)
          (ix1 (Cert.Clause.pos ((V (Proc.devRef .tc main_arg2) : S6000000x3.Idx → BitVec 32) (ix2 i j)))) := by
  dsimp only [hostOps1]
  after_results
  exact wrapGather_apply (R := 3) (C := 6000000) _ _ _ _ _ _ j i

/-- The sign column of formula 1: at `(j, 0)`, entry `j` of the formula's sign vector. -/
theorem host1_signs_apply (V : Valuation τ sig (Elt Ideal)) (j : Fin 3) :
    (StableHlo.after (hostOps1 (F := Ideal)) V (Proc.devRef .tc main_v19) : S3x1.Idx → EReal) (ix2 j 0)
      = (V (Proc.devRef .tc main_cst_0) : S3.Idx → EReal) (ix1 j) := by
  dsimp only [hostOps1]
  after_results
  show shapeCast S3x1 (V (Proc.devRef .tc main_cst_0) : S3.Idx → EReal) _ (ix2 j 0) = _
  rw [shapeCast_a_a1_apply]

/-! ## Before the third kernel -/

/-- The gathered atoms of formula 2: at `(j, i)`, the flattened table's entry at the position that word `j` of clique `i`
    picks. -/
theorem host2_atoms_apply (V : Valuation τ sig (Elt Ideal)) (j : Fin 4) (i : Fin 4000000) :
    (StableHlo.after (hostOps2 (F := Ideal)) V (Proc.devRef .tc main_v28) : S4x4000000.Idx → EReal) (ix2 j i)
      = (V (Proc.devRef .tc main_v0) : S2000000.Idx → EReal)
          (ix1 (Cert.Clause.pos ((V (Proc.devRef .tc main_arg3) : S4000000x4.Idx → BitVec 32) (ix2 i j)))) := by
  dsimp only [hostOps2]
  after_results
  exact wrapGather_apply (R := 4) (C := 4000000) _ _ _ _ _ _ j i

/-- The sign column of formula 2: at `(j, 0)`, entry `j` of the formula's sign vector. -/
theorem host2_signs_apply (V : Valuation τ sig (Elt Ideal)) (j : Fin 4) :
    (StableHlo.after (hostOps2 (F := Ideal)) V (Proc.devRef .tc main_v29) : S4x1.Idx → EReal) (ix2 j 0)
      = (V (Proc.devRef .tc main_cst_1) : S4.Idx → EReal) (ix1 j) := by
  dsimp only [hostOps2]
  after_results
  show shapeCast S4x1 (V (Proc.devRef .tc main_cst_1) : S4.Idx → EReal) _ (ix2 j 0) = _
  rw [shapeCast_a_a1_apply]

/-! ## After the third kernel: the three rows, one after the other -/

/-- The result row at column `c`: the first kernel's row at `c` below 8,000,000; the second's at `c - 8,000,000` below
    14,000,000; the third's at `c - 14,000,000` from there on. -/
theorem host3_row_apply (V : Valuation τ sig (Elt Ideal)) (J : S1x18000000.Idx) :
    (StableHlo.after (hostOps3 (F := Ideal)) V (Proc.devRef .tc main_v31) : S1x18000000.Idx → EReal) J
      = if h0 : (J 1).val < 8000000 then
          (V (Proc.devRef .tc main_v10) : S1x8000000.Idx → EReal) (ix2 0 ⟨(J 1).val, h0⟩)
        else if h1 : (J 1).val < 14000000 then
          (V (Proc.devRef .tc main_v20) : S1x6000000.Idx → EReal) (ix2 0 ⟨(J 1).val - 8000000, by omega⟩)
        else
          (V (Proc.devRef .tc main_v30) : S1x4000000.Idx → EReal)
            (ix2 0 ⟨(J 1).val - 14000000, by have := idx2_lt1 J; omega⟩) := by
  dsimp only [hostOps3]
  after_results
  show concatenate S1x18000000 1
      [⟨S1x8000000, (V (Proc.devRef .tc main_v10) : S1x8000000.Idx → EReal)⟩,
       ⟨S1x6000000, (V (Proc.devRef .tc main_v20) : S1x6000000.Idx → EReal)⟩,
       ⟨S1x4000000, (V (Proc.devRef .tc main_v30) : S1x4000000.Idx → EReal)⟩] _ J = _
  have hJ0 := idx2_lt0 J
  have hJ1 := idx2_lt1 J
  split
  · next h0 =>
    refine concatenate_apply_piece (1 : Fin 2)
      [⟨S1x8000000, (V (Proc.devRef .tc main_v10) : S1x8000000.Idx → EReal)⟩,
       ⟨S1x6000000, (V (Proc.devRef .tc main_v20) : S1x6000000.Idx → EReal)⟩,
       ⟨S1x4000000, (V (Proc.devRef .tc main_v30) : S1x4000000.Idx → EReal)⟩]
      _ J 0 (Nat.succ_pos _) S1x8000000 _ rfl rfl 0 rfl
      (ix2 0 ⟨(J 1).val, h0⟩) (fun b hb => ?_) ?_
    · match b with
      | ⟨0, _⟩ => show 0 = (J 0).val; omega
      | ⟨1, _⟩ => exact absurd rfl hb
    · show 0 + (J 1).val = (J 1).val; omega
  · next h0 =>
    split
    · next h1 =>
      refine concatenate_apply_piece (1 : Fin 2)
          [⟨S1x8000000, (V (Proc.devRef .tc main_v10) : S1x8000000.Idx → EReal)⟩,
           ⟨S1x6000000, (V (Proc.devRef .tc main_v20) : S1x6000000.Idx → EReal)⟩,
           ⟨S1x4000000, (V (Proc.devRef .tc main_v30) : S1x4000000.Idx → EReal)⟩]
          _ J 1 (Nat.succ_lt_succ (Nat.succ_pos _)) S1x6000000 _ rfl rfl 8000000 rfl
        (ix2 0 ⟨(J 1).val - 8000000, by omega⟩) (fun b hb => ?_) ?_
      · match b with
        | ⟨0, _⟩ => show 0 = (J 0).val; omega
        | ⟨1, _⟩ => exact absurd rfl hb
      · show 8000000 + ((J 1).val - 8000000) = (J 1).val; omega
    · next h1 =>
      refine concatenate_apply_piece (1 : Fin 2)
          [⟨S1x8000000, (V (Proc.devRef .tc main_v10) : S1x8000000.Idx → EReal)⟩,
           ⟨S1x6000000, (V (Proc.devRef .tc main_v20) : S1x6000000.Idx → EReal)⟩,
           ⟨S1x4000000, (V (Proc.devRef .tc main_v30) : S1x4000000.Idx → EReal)⟩]
          _ J 2 (Nat.succ_lt_succ (Nat.succ_lt_succ (Nat.succ_pos _))) S1x4000000 _ rfl rfl 14000000 (by simp)
        (ix2 0 ⟨(J 1).val - 14000000, by omega⟩) (fun b hb => ?_) ?_
      · match b with
        | ⟨0, _⟩ => show 0 = (J 0).val; omega
        | ⟨1, _⟩ => exact absurd rfl hb
      · show 14000000 + ((J 1).val - 14000000) = (J 1).val; omega

end Cert.KernelIdeal.Ops

end
-- ==== Proof.KernelIdealOut.lean ====
/-
  The idealized kernel program's value: its result row is the clause values of the three formulas, one formula after
  the other.

  The final contents of every buffer are the fold `W7` through the program's seven items. Read at the result: the
  closing concatenation lays the three calls' output rows side by side; each call's row is `min 1 (Σ_j (1/2 + s_j·(g_j - 1/2)))`
  of its two entry arrays; the gathered-values array at `(j, i)` is the atom that word `j` of clique `i` picks from the
  table, and the sign column at `j` is `+1` or `-1`; and `1/2 + s·(g - 1/2)` is the literal. The table copy, the sign
  vectors and the argument arrays are read back through the boundaries to where they were written: no later item
  writes them.
-/
import proofs.«173380_j75831942578505_1_alg».proof.Proof.KernelIdealBlocks
import proofs.«173380_j75831942578505_1_alg».proof.Proof.KernelHost
import proofs.«173380_j75831942578505_1_alg».proof.Proof.KernelHostRest
import proofs.«173380_j75831942578505_1_alg».proof.Proof.Clause

set_option maxRecDepth 16384

noncomputable section

open scoped BigOperators

namespace Cert.KernelIdeal.Out

open Idealize.ShloMosaic Idealize.ShloMosaic.TcCoe Idealize.ShloMosaic.ValueIdx
open Idealize.SL Idealize.SL.Sem
open Cert.KernelIdeal Cert.KernelIdeal.Gen Cert.KernelIdeal.Run Cert.Clause

variable (m : (ℓ : Loc nD τ sig) → Buf (Elt Ideal) ℓ) (ρ : Dev nD → PrngReg)

/-! ## What the later items leave alone -/

theorem W2_main_arg2 (c : Dev nD) : W2 m ρ c (Proc.devRef .tc main_arg2) = m ((c : Thread nD τ).loc main_arg2) :=
  (W2_of_ne m ρ c main_arg2 (by decide)).trans ((W1_keep m ρ c main_arg2 (by decide)).trans rfl)
theorem W4_main_arg3 (c : Dev nD) : W4 m ρ c (Proc.devRef .tc main_arg3) = m ((c : Thread nD τ).loc main_arg3) :=
  (W4_of_ne m ρ c main_arg3 (by decide)).trans <| (W3_keep m ρ c main_arg3 (by decide)).trans <|
    (W2_of_ne m ρ c main_arg3 (by decide)).trans ((W1_keep m ρ c main_arg3 (by decide)).trans rfl)
theorem W2_main_v0 (c : Dev nD) : W2 m ρ c (Proc.devRef .tc main_v0) = W1 m ρ c (Proc.devRef .tc main_v0) :=
  W2_of_ne m ρ c main_v0 (by decide)
theorem W4_main_v0 (c : Dev nD) : W4 m ρ c (Proc.devRef .tc main_v0) = W1 m ρ c (Proc.devRef .tc main_v0) :=
  (W4_of_ne m ρ c main_v0 (by decide)).trans <| (W3_keep m ρ c main_v0 (by decide)).trans (W2_of_ne m ρ c main_v0 (by decide))
theorem W2_main_cst_0 (c : Dev nD) : W2 m ρ c (Proc.devRef .tc main_cst_0) = W1 m ρ c (Proc.devRef .tc main_cst_0) :=
  W2_of_ne m ρ c main_cst_0 (by decide)
theorem W4_main_cst_1 (c : Dev nD) : W4 m ρ c (Proc.devRef .tc main_cst_1) = W1 m ρ c (Proc.devRef .tc main_cst_1) :=
  (W4_of_ne m ρ c main_cst_1 (by decide)).trans <| (W3_keep m ρ c main_cst_1 (by decide)).trans (W2_of_ne m ρ c main_cst_1 (by decide))
theorem W6_main_v10 (c : Dev nD) : W6 m ρ c (Proc.devRef .tc main_v10) = W2 m ρ c (Proc.devRef .tc main_v10) :=
  (W6_of_ne m ρ c main_v10 (by decide)).trans <| (W5_keep m ρ c main_v10 (by decide)).trans <|
    (W4_of_ne m ρ c main_v10 (by decide)).trans (W3_keep m ρ c main_v10 (by decide))
theorem W6_main_v20 (c : Dev nD) : W6 m ρ c (Proc.devRef .tc main_v20) = W4 m ρ c (Proc.devRef .tc main_v20) :=
  (W6_of_ne m ρ c main_v20 (by decide)).trans (W5_keep m ρ c main_v20 (by decide))

/-- The flattened table copy, wherever it is read later, is the table. -/
theorem table_apply (c : Dev nD) (p : Fin 2000000) :
    (W1 m ρ c (Proc.devRef .tc main_v0) : S2000000.Idx → EReal) (ix1 p) = (m ((c : Thread nD τ).loc main_arg0) : S1x2000000.Idx → EReal) (ix2 0 p) :=
  Ops.host0_table_apply (W0 m ρ c) p

/-! ## The three calls' rows -/

/-- The first call's output row holds formula 0's clause values. -/
theorem row0 (c : Dev nD) (i : Fin 8000000) :
    (W2 m ρ c (Proc.devRef .tc main_v10) : S1x8000000.Idx → EReal) (ix2 0 i)
      = clauseAt sg0 (m ((c : Thread nD τ).loc main_arg0)) (m ((c : Thread nD τ).loc main_arg1)) i := by
  rw [show W2 m ρ c (Proc.devRef .tc main_v10) = (dat0 (U1 m ρ) c).arrAt 2 cfg0.N from W2_arr m ρ c 2, Blocks.final0]
  unfold Blocks.G0 clauseAt clause
  refine congrArg _ (Finset.sum_congr rfl fun j _ => ?_)
  have hs : (U1 m ρ c main_v9 : S2x1.Idx → EReal) (ix2 j 0) = sgn (sg0 j) := Ops.host0_signs_apply (W0 m ρ c) j
  have hg : (U1 m ρ c main_v8 : S2x8000000.Idx → EReal) (ix2 j i)
      = atom (m ((c : Thread nD τ).loc main_arg0)) (((m ((c : Thread nD τ).loc main_arg1)) : S8000000x2.Idx → BitVec 32) (ix2 i j)) :=
    Ops.host0_atoms_apply (W0 m ρ c) j i
  refine (congrArg₂ (fun s g : EReal => ((1 / 2 : ℝ) : EReal) + s * (g - ((1 / 2 : ℝ) : EReal))) hs hg).trans ?_
  exact half_form _ _

/-- The second call's output row holds formula 1's clause values. -/
theorem row1 (c : Dev nD) (i : Fin 6000000) :
    (W4 m ρ c (Proc.devRef .tc main_v20) : S1x6000000.Idx → EReal) (ix2 0 i)
      = clauseAt sg1 (m ((c : Thread nD τ).loc main_arg0)) (m ((c : Thread nD τ).loc main_arg2)) i := by
  rw [show W4 m ρ c (Proc.devRef .tc main_v20) = (dat1 (U3 m ρ) c).arrAt 2 cfg1.N from W4_arr m ρ c 2, Blocks.final1]
  unfold Blocks.G1 clauseAt clause
  refine congrArg _ (Finset.sum_congr rfl fun j _ => ?_)
  have hs : (U3 m ρ c main_v19 : S3x1.Idx → EReal) (ix2 j 0) = sgn (sg1 j) := by
    refine (Ops.host1_signs_apply (W2 m ρ c) j).trans ?_
    rw [W2_main_cst_0]
    exact Ops.host0_signs1_apply (W0 m ρ c) j
  have hg : (U3 m ρ c main_v18 : S3x6000000.Idx → EReal) (ix2 j i)
      = atom (m ((c : Thread nD τ).loc main_arg0)) (((m ((c : Thread nD τ).loc main_arg2)) : S6000000x3.Idx → BitVec 32) (ix2 i j)) := by
    refine (Ops.host1_atoms_apply (W2 m ρ c) j i).trans ?_
    rw [W2_main_v0, W2_main_arg2]
    exact table_apply m ρ c _
  refine (congrArg₂ (fun s g : EReal => ((1 / 2 : ℝ) : EReal) + s * (g - ((1 / 2 : ℝ) : EReal))) hs hg).trans ?_
  exact half_form _ _

/-- The third call's output row holds formula 2's clause values. -/
theorem row2 (c : Dev nD) (i : Fin 4000000) :
    (W6 m ρ c (Proc.devRef .tc main_v30) : S1x4000000.Idx → EReal) (ix2 0 i)
      = clauseAt sg2 (m ((c : Thread nD τ).loc main_arg0)) (m ((c : Thread nD τ).loc main_arg3)) i := by
  rw [show W6 m ρ c (Proc.devRef .tc main_v30) = (dat2 (U5 m ρ) c).arrAt 2 cfg2.N from W6_arr m ρ c 2, Blocks.final2]
  unfold Blocks.G2 clauseAt clause
  refine congrArg _ (Finset.sum_congr rfl fun j _ => ?_)
  have hs : (U5 m ρ c main_v29 : S4x1.Idx → EReal) (ix2 j 0) = sgn (sg2 j) := by
    refine (Ops.host2_signs_apply (W4 m ρ c) j).trans ?_
    rw [W4_main_cst_1]
    exact Ops.host0_signs2_apply (W0 m ρ c) j
  have hg : (U5 m ρ c main_v28 : S4x4000000.Idx → EReal) (ix2 j i)
      = atom (m ((c : Thread nD τ).loc main_arg0)) (((m ((c : Thread nD τ).loc main_arg3)) : S4000000x4.Idx → BitVec 32) (ix2 i j)) := by
    refine (Ops.host2_atoms_apply (W4 m ρ c) j i).trans ?_
    rw [W4_main_v0, W4_main_arg3]
    exact table_apply m ρ c _
  refine (congrArg₂ (fun s g : EReal => ((1 / 2 : ℝ) : EReal) + s * (g - ((1 / 2 : ℝ) : EReal))) hs hg).trans ?_
  exact half_form _ _

/-! ## The result row -/

/-- THE RESULT at the return: the specification's row of the four argument arrays. -/
theorem W7_out (c : Dev nD) :
    (W7 m ρ c (Proc.devRef .tc main_v31) : S1x18000000.Idx → EReal)
      = Cert.Clause.out (m ((c : Thread nD τ).loc main_arg0)) (m ((c : Thread nD τ).loc main_arg1)) (m ((c : Thread nD τ).loc main_arg2)) (m ((c : Thread nD τ).loc main_arg3)) := by
  funext J
  refine (Ops.host3_row_apply (W6 m ρ c) J).trans ?_
  unfold Cert.Clause.out
  by_cases h0 : (J 1).val < 8000000
  · rw [dif_pos h0, dif_pos h0, W6_main_v10]
    exact row0 m ρ c _
  · rw [dif_neg h0, dif_neg h0]
    by_cases h1 : (J 1).val < 14000000
    · rw [dif_pos h1, dif_pos h1, W6_main_v20]
      exact row1 m ρ c _
    · rw [dif_neg h1, dif_neg h1]
      exact row2 m ρ c _

/-- THE KERNEL'S RUN, READ: every weakly fair execution terminates with the result row at the specification of the
    argument arrays, and the arguments unchanged. -/
theorem run_out : θ_run (defs (F := Ideal)) (onTc (τ := τ) (main (F := Ideal))) ⟨m, fun _ => 0, ρ⟩ (fun r => ∀ c : Dev nD,
      r.2.mem ((c.tc : Thread nD τ).loc main_v31) = Cert.Clause.out (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v31 (by decide))).trans (W7_out m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.KernelIdeal.Out

end
-- ==== Proof.RefRun.lean ====
/-
  The reference program's run, read back.

  The reference's entry function is a straight line of host operations: for each of the three formulas it reads the
  grounding words (a negative word counts from the end of the table: it has the table length added), gathers the atom values, forms the
  literals (the atom where the position's sign word is positive, one minus the atom elsewhere — the outlined
  `where`, two operations at each of its three calls), sums them along the clause and takes the smaller of one and
  the sum; it then lays the three clause vectors one after the other and gives the row a leading unit axis.

  This module lists those operations in order, shows the entry function is that list run in sequence, and reads the
  final contents of the result buffer as one composed term `refOut` of the four argument arrays.
-/
import proofs.«173380_j75831942578505_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## A three-operand operation's result, operand by operand -/

section Nary3

variable {τ : Topo} {sig : RefSig} {Val : EltTy → Type} {x a b y : Ref sig .tc}

/-- An operation over a literal family of three operands leaves its result buffer at its function of the three
    operands' contents, each read at its own buffer. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, with the result buffer left out of the rewriting index. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Nary3

variable {F : FTy → Type} [FloatOps F]

/-! ## The entry function as a list of operations -/

/-- The entry function's 72 operations, in order; each call of the outlined `where` is its two operations over
    that call's own buffers. -/
abbrev ops : List (HloOp τ sig (Elt F)) :=
  [ StableHlo.nullary main_c (fun i => lit0 (S2.rowMajor i)),
    StableHlo.nullary main_c_0 (fun i => lit1 (S3.rowMajor i)),
    StableHlo.nullary main_c_1 (fun i => lit2 (S4.rowMajor i)),
    StableHlo.reshape main_arg0 main_v0 rfl shapeCasts_S1x2000000_S2000000,
    StableHlo.nullary main_c_2 (constantI S_ 32 0#32),
    StableHlo.unary main_c_2 main_v1 (broadcastInDim S8000000x2 ![] bcast_S_S8000000x2 : (⟨S_, .i32⟩ : BufTy).Contents (Elt F) → (⟨S8000000x2, .i32⟩ : BufTy).Contents (Elt F)),
    StableHlo.binary main_arg1 main_v1 main_v2 (cmpi .slt : (⟨S8000000x2, .i32⟩ : BufTy).Contents (Elt F) → (⟨S8000000x2, .i32⟩ : BufTy).Contents (Elt F) → (⟨S8000000x2, .i1⟩ : BufTy).Contents (Elt F)),
    StableHlo.nullary main_c_3 (constantI S_ 32 2000000#32),
    StableHlo.unary main_c_3 main_v3 (broadcastInDim S8000000x2 ![] bcast_S_S8000000x2 : (⟨S_, .i32⟩ : BufTy).Contents (Elt F) → (⟨S8000000x2, .i32⟩ : BufTy).Contents (Elt F)),
    StableHlo.binary main_arg1 main_v3 main_v4 (addi : (⟨S8000000x2, .i32⟩ : BufTy).Contents (Elt F) → (⟨S8000000x2, .i32⟩ : BufTy).Contents (Elt F) → (⟨S8000000x2, .i32⟩ : BufTy).Contents (Elt F)),
    StableHlo.ternary main_v2 main_v4 main_arg1 main_v5 (select : (⟨S8000000x2, .i1⟩ : BufTy).Contents (Elt F) → (⟨S8000000x2, .i32⟩ : BufTy).Contents (Elt F) → (⟨S8000000x2, .i32⟩ : BufTy).Contents (Elt F) → (⟨S8000000x2, .i32⟩ : BufTy).Contents (Elt F)),
    StableHlo.unary main_v5 main_v6 (broadcastInDim S8000000x2x1 ![0, 1] bcast_S8000000x2_S8000000x2x1_0_1 : (⟨S8000000x2, .i32⟩ : BufTy).Contents (Elt F) → (⟨S8000000x2x1, .i32⟩ : BufTy).Contents (Elt F)),
    StableHlo.binary main_v0 main_v6 main_v7 ((fun x i => Host.gather gather_S2000000_S8000000x2x1_S8000000x2_n_0_n_n_0_2_1 x i) : (⟨S2000000, .f32⟩ : BufTy).Contents (Elt F) → (⟨S8000000x2x1, .i32⟩ : BufTy).Contents (Elt F) → (⟨S8000000x2, .f32⟩ : BufTy).Contents (Elt F)),
    StableHlo.nullary main_c_4 (constantI S_ 32 0#32),
    StableHlo.unary main_c_4 main_v8 (broadcastInDim S2 ![] bcast_S_S2 : (⟨S_, .i32⟩ : BufTy).Contents (Elt F) → (⟨S2, .i32⟩ : BufTy).Contents (Elt F)),
    StableHlo.binary main_c main_v8 main_v9 (cmpi .sgt : (⟨S2, .i32⟩ : BufTy).Contents (Elt F) → (⟨S2, .i32⟩ : BufTy).Contents (Elt F) → (⟨S2, .i1⟩ : BufTy).Contents (Elt F)),
    StableHlo.nullary main_cst (constant S_ .f32 0x3F800000#32),
    StableHlo.unary main_cst main_v10 (broadcastInDim S8000000x2 ![] bcast_S_S8000000x2 : (⟨S_, .f32⟩ : BufTy).Contents (Elt F) → (⟨S8000000x2, .f32⟩ : BufTy).Contents (Elt F)),
    StableHlo.binary main_v10 main_v7 main_v11 (subf : (⟨S8000000x2, .f32⟩ : BufTy).Contents (Elt F) → (⟨S8000000x2, .f32⟩ : BufTy).Contents (Elt F) → (⟨S8000000x2, .f32⟩ : BufTy).Contents (Elt F)),
    StableHlo.TRef.unary (TRef.of main_v9 : TRef sig ⟨S2, .i1⟩) main_call0.v0 (broadcastInDim S8000000x2 ![1] bcast_S2_S8000000x2_1 : (⟨S2, .i1⟩ : BufTy).Contents (Elt F) → (⟨S8000000x2, .i1⟩ : BufTy).Contents (Elt F)),
    StableHlo.TRef.ternary main_call0.v0 (TRef.of main_v7 : TRef sig ⟨S8000000x2, .f32⟩) (TRef.of main_v11 : TRef sig ⟨S8000000x2, .f32⟩) main_call0.v1 (select : (⟨S8000000x2, .i1⟩ : BufTy).Contents (Elt F) → (⟨S8000000x2, .f32⟩ : BufTy).Contents (Elt F) → (⟨S8000000x2, .f32⟩ : BufTy).Contents (Elt F) → (⟨S8000000x2, .f32⟩ : BufTy).Contents (Elt F)),
    StableHlo.nullary main_cst_5 (constant S_ .f32 0x00000000#32),
    StableHlo.binary main_v12 main_cst_5 main_v13 ((fun x v => Host.reduceAdd x v reducesTo_S8000000x2_S8000000_d1 h_S_) : (⟨S8000000x2, .f32⟩ : BufTy).Contents (Elt F) → (⟨S_, .f32⟩ : BufTy).Contents (Elt F) → (⟨S8000000, .f32⟩ : BufTy).Contents (Elt F)),
    StableHlo.nullary main_cst_6 (constant S_ .f32 0x3F800000#32),
    StableHlo.unary main_cst_6 main_v14 (broadcastInDim S8000000 ![] bcast_S_S8000000 : (⟨S_, .f32⟩ : BufTy).Contents (Elt F) → (⟨S8000000, .f32⟩ : BufTy).Contents (Elt F)),
    StableHlo.binary main_v14 main_v13 main_v15 (minimumf : (⟨S8000000, .f32⟩ : BufTy).Contents (Elt F) → (⟨S8000000, .f32⟩ : BufTy).Contents (Elt F) → (⟨S8000000, .f32⟩ : BufTy).Contents (Elt F)),
    StableHlo.nullary main_c_7 (constantI S_ 32 0#32),
    StableHlo.unary main_c_7 main_v16 (broadcastInDim S6000000x3 ![] bcast_S_S6000000x3 : (⟨S_, .i32⟩ : BufTy).Contents (Elt F) → (⟨S6000000x3, .i32⟩ : BufTy).Contents (Elt F)),
    StableHlo.binary main_arg2 main_v16 main_v17 (cmpi .slt : (⟨S6000000x3, .i32⟩ : BufTy).Contents (Elt F) → (⟨S6000000x3, .i32⟩ : BufTy).Contents (Elt F) → (⟨S6000000x3, .i1⟩ : BufTy).Contents (Elt F)),
    StableHlo.nullary main_c_8 (constantI S_ 32 2000000#32),
    StableHlo.unary main_c_8 main_v18 (broadcastInDim S6000000x3 ![] bcast_S_S6000000x3 : (⟨S_, .i32⟩ : BufTy).Contents (Elt F) → (⟨S6000000x3, .i32⟩ : BufTy).Contents (Elt F)),
    StableHlo.binary main_arg2 main_v18 main_v19 (addi : (⟨S6000000x3, .i32⟩ : BufTy).Contents (Elt F) → (⟨S6000000x3, .i32⟩ : BufTy).Contents (Elt F) → (⟨S6000000x3, .i32⟩ : BufTy).Contents (Elt F)),
    StableHlo.ternary main_v17 main_v19 main_arg2 main_v20 (select : (⟨S6000000x3, .i1⟩ : BufTy).Contents (Elt F) → (⟨S6000000x3, .i32⟩ : BufTy).Contents (Elt F) → (⟨S6000000x3, .i32⟩ : BufTy).Contents (Elt F) → (⟨S6000000x3, .i32⟩ : BufTy).Contents (Elt F)),
    StableHlo.unary main_v20 main_v21 (broadcastInDim S6000000x3x1 ![0, 1] bcast_S6000000x3_S6000000x3x1_0_1 : (⟨S6000000x3, .i32⟩ : BufTy).Contents (Elt F) → (⟨S6000000x3x1, .i32⟩ : BufTy).Contents (Elt F)),
    StableHlo.binary main_v0 main_v21 main_v22 ((fun x i => Host.gather gather_S2000000_S6000000x3x1_S6000000x3_n_0_n_n_0_2_1 x i) : (⟨S2000000, .f32⟩ : BufTy).Contents (Elt F) → (⟨S6000000x3x1, .i32⟩ : BufTy).Contents (Elt F) → (⟨S6000000x3, .f32⟩ : BufTy).Contents (Elt F)),
    StableHlo.nullary main_c_9 (constantI S_ 32 0#32),
    StableHlo.unary main_c_9 main_v23 (broadcastInDim S3 ![] bcast_S_S3 : (⟨S_, .i32⟩ : BufTy).Contents (Elt F) → (⟨S3, .i32⟩ : BufTy).Contents (Elt F)),
    StableHlo.binary main_c_0 main_v23 main_v24 (cmpi .sgt : (⟨S3, .i32⟩ : BufTy).Contents (Elt F) → (⟨S3, .i32⟩ : BufTy).Contents (Elt F) → (⟨S3, .i1⟩ : BufTy).Contents (Elt F)),
    StableHlo.nullary main_cst_10 (constant S_ .f32 0x3F800000#32),
    StableHlo.unary main_cst_10 main_v25 (broadcastInDim S6000000x3 ![] bcast_S_S6000000x3 : (⟨S_, .f32⟩ : BufTy).Contents (Elt F) → (⟨S6000000x3, .f32⟩ : BufTy).Contents (Elt F)),
    StableHlo.binary main_v25 main_v22 main_v26 (subf : (⟨S6000000x3, .f32⟩ : BufTy).Contents (Elt F) → (⟨S6000000x3, .f32⟩ : BufTy).Contents (Elt F) → (⟨S6000000x3, .f32⟩ : BufTy).Contents (Elt F)),
    StableHlo.TRef.unary (TRef.of main_v24 : TRef sig ⟨S3, .i1⟩) main_call1.v0 (broadcastInDim S6000000x3 ![1] bcast_S3_S6000000x3_1 : (⟨S3, .i1⟩ : BufTy).Contents (Elt F) → (⟨S6000000x3, .i1⟩ : BufTy).Contents (Elt F)),
    StableHlo.TRef.ternary main_call1.v0 (TRef.of main_v22 : TRef sig ⟨S6000000x3, .f32⟩) (TRef.of main_v26 : TRef sig ⟨S6000000x3, .f32⟩) main_call1.v1 (select : (⟨S6000000x3, .i1⟩ : BufTy).Contents (Elt F) → (⟨S6000000x3, .f32⟩ : BufTy).Contents (Elt F) → (⟨S6000000x3, .f32⟩ : BufTy).Contents (Elt F) → (⟨S6000000x3, .f32⟩ : BufTy).Contents (Elt F)),
    StableHlo.nullary main_cst_11 (constant S_ .f32 0x00000000#32),
    StableHlo.binary main_v27 main_cst_11 main_v28 ((fun x v => Host.reduceAdd x v reducesTo_S6000000x3_S6000000_d1 h_S_) : (⟨S6000000x3, .f32⟩ : BufTy).Contents (Elt F) → (⟨S_, .f32⟩ : BufTy).Contents (Elt F) → (⟨S6000000, .f32⟩ : BufTy).Contents (Elt F)),
    StableHlo.nullary main_cst_12 (constant S_ .f32 0x3F800000#32),
    StableHlo.unary main_cst_12 main_v29 (broadcastInDim S6000000 ![] bcast_S_S6000000 : (⟨S_, .f32⟩ : BufTy).Contents (Elt F) → (⟨S6000000, .f32⟩ : BufTy).Contents (Elt F)),
    StableHlo.binary main_v29 main_v28 main_v30 (minimumf : (⟨S6000000, .f32⟩ : BufTy).Contents (Elt F) → (⟨S6000000, .f32⟩ : BufTy).Contents (Elt F) → (⟨S6000000, .f32⟩ : BufTy).Contents (Elt F)),
    StableHlo.nullary main_c_13 (constantI S_ 32 0#32),
    StableHlo.unary main_c_13 main_v31 (broadcastInDim S4000000x4 ![] bcast_S_S4000000x4 : (⟨S_, .i32⟩ : BufTy).Contents (Elt F) → (⟨S4000000x4, .i32⟩ : BufTy).Contents (Elt F)),
    StableHlo.binary main_arg3 main_v31 main_v32 (cmpi .slt : (⟨S4000000x4, .i32⟩ : BufTy).Contents (Elt F) → (⟨S4000000x4, .i32⟩ : BufTy).Contents (Elt F) → (⟨S4000000x4, .i1⟩ : BufTy).Contents (Elt F)),
    StableHlo.nullary main_c_14 (constantI S_ 32 2000000#32),
    StableHlo.unary main_c_14 main_v33 (broadcastInDim S4000000x4 ![] bcast_S_S4000000x4 : (⟨S_, .i32⟩ : BufTy).Contents (Elt F) → (⟨S4000000x4, .i32⟩ : BufTy).Contents (Elt F)),
    StableHlo.binary main_arg3 main_v33 main_v34 (addi : (⟨S4000000x4, .i32⟩ : BufTy).Contents (Elt F) → (⟨S4000000x4, .i32⟩ : BufTy).Contents (Elt F) → (⟨S4000000x4, .i32⟩ : BufTy).Contents (Elt F)),
    StableHlo.ternary main_v32 main_v34 main_arg3 main_v35 (select : (⟨S4000000x4, .i1⟩ : BufTy).Contents (Elt F) → (⟨S4000000x4, .i32⟩ : BufTy).Contents (Elt F) → (⟨S4000000x4, .i32⟩ : BufTy).Contents (Elt F) → (⟨S4000000x4, .i32⟩ : BufTy).Contents (Elt F)),
    StableHlo.unary main_v35 main_v36 (broadcastInDim S4000000x4x1 ![0, 1] bcast_S4000000x4_S4000000x4x1_0_1 : (⟨S4000000x4, .i32⟩ : BufTy).Contents (Elt F) → (⟨S4000000x4x1, .i32⟩ : BufTy).Contents (Elt F)),
    StableHlo.binary main_v0 main_v36 main_v37 ((fun x i => Host.gather gather_S2000000_S4000000x4x1_S4000000x4_n_0_n_n_0_2_1 x i) : (⟨S2000000, .f32⟩ : BufTy).Contents (Elt F) → (⟨S4000000x4x1, .i32⟩ : BufTy).Contents (Elt F) → (⟨S4000000x4, .f32⟩ : BufTy).Contents (Elt F)),
    StableHlo.nullary main_c_15 (constantI S_ 32 0#32),
    StableHlo.unary main_c_15 main_v38 (broadcastInDim S4 ![] bcast_S_S4 : (⟨S_, .i32⟩ : BufTy).Contents (Elt F) → (⟨S4, .i32⟩ : BufTy).Contents (Elt F)),
    StableHlo.binary main_c_1 main_v38 main_v39 (cmpi .sgt : (⟨S4, .i32⟩ : BufTy).Contents (Elt F) → (⟨S4, .i32⟩ : BufTy).Contents (Elt F) → (⟨S4, .i1⟩ : BufTy).Contents (Elt F)),
    StableHlo.nullary main_cst_16 (constant S_ .f32 0x3F800000#32),
    StableHlo.unary main_cst_16 main_v40 (broadcastInDim S4000000x4 ![] bcast_S_S4000000x4 : (⟨S_, .f32⟩ : BufTy).Contents (Elt F) → (⟨S4000000x4, .f32⟩ : BufTy).Contents (Elt F)),
    StableHlo.binary main_v40 main_v37 main_v41 (subf : (⟨S4000000x4, .f32⟩ : BufTy).Contents (Elt F) → (⟨S4000000x4, .f32⟩ : BufTy).Contents (Elt F) → (⟨S4000000x4, .f32⟩ : BufTy).Contents (Elt F)),
    StableHlo.TRef.unary (TRef.of main_v39 : TRef sig ⟨S4, .i1⟩) main_call2.v0 (broadcastInDim S4000000x4 ![1] bcast_S4_S4000000x4_1 : (⟨S4, .i1⟩ : BufTy).Contents (Elt F) → (⟨S4000000x4, .i1⟩ : BufTy).Contents (Elt F)),
    StableHlo.TRef.ternary main_call2.v0 (TRef.of main_v37 : TRef sig ⟨S4000000x4, .f32⟩) (TRef.of main_v41 : TRef sig ⟨S4000000x4, .f32⟩) main_call2.v1 (select : (⟨S4000000x4, .i1⟩ : BufTy).Contents (Elt F) → (⟨S4000000x4, .f32⟩ : BufTy).Contents (Elt F) → (⟨S4000000x4, .f32⟩ : BufTy).Contents (Elt F) → (⟨S4000000x4, .f32⟩ : BufTy).Contents (Elt F)),
    StableHlo.nullary main_cst_17 (constant S_ .f32 0x00000000#32),
    StableHlo.binary main_v42 main_cst_17 main_v43 ((fun x v => Host.reduceAdd x v reducesTo_S4000000x4_S4000000_d1 h_S_) : (⟨S4000000x4, .f32⟩ : BufTy).Contents (Elt F) → (⟨S_, .f32⟩ : BufTy).Contents (Elt F) → (⟨S4000000, .f32⟩ : BufTy).Contents (Elt F)),
    StableHlo.nullary main_cst_18 (constant S_ .f32 0x3F800000#32),
    StableHlo.unary main_cst_18 main_v44 (broadcastInDim S4000000 ![] bcast_S_S4000000 : (⟨S_, .f32⟩ : BufTy).Contents (Elt F) → (⟨S4000000, .f32⟩ : BufTy).Contents (Elt F)),
    StableHlo.binary main_v44 main_v43 main_v45 (minimumf : (⟨S4000000, .f32⟩ : BufTy).Contents (Elt F) → (⟨S4000000, .f32⟩ : BufTy).Contents (Elt F) → (⟨S4000000, .f32⟩ : BufTy).Contents (Elt F)),
    StableHlo.nary ![main_v15, main_v30, main_v45] main_v46 (fun u => concatenate S18000000 0 [⟨S8000000, u 0⟩, ⟨S6000000, u 1⟩, ⟨S4000000, u 2⟩] concatenates_S8000000_S6000000_S4000000_S18000000_d0),
    StableHlo.unary main_v46 main_v47 (broadcastInDim S1x18000000 ![1] bcast_S18000000_S1x18000000_1 : (⟨S18000000, .f32⟩ : BufTy).Contents (Elt F) → (⟨S1x18000000, .f32⟩ : BufTy).Contents (Elt F)) ]

set_option maxRecDepth 8192 in
set_option maxHeartbeats 4000000 in
/-- The entry function is that straight line: its two windows and the outlined function's body unfolded at the three
    calls, both sides are one chain of steps once sequencing is reassociated. -/
theorem main_eq (c : Dev nD) : main (F := F) c = seq ops := by
  simp only [main, main_part0, main_part1, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., unary_bufs_sub .., ternary_bufs_sub .., nullary_bufs_sub .., binary_bufs_sub .., nullary_bufs_sub .., unary_bufs_sub .., binary_bufs_sub .., nary_bufs_sub .., unary_bufs_sub ..⟩

/-! ## The composed term -/

/-- Formula 0's grounding words with a negative word counted from the end of the table (the table length added). -/
def wrapped0 (i : (⟨S8000000x2, .i32⟩ : BufTy).Contents (Elt F)) : (⟨S8000000x2, .i32⟩ : BufTy).Contents (Elt F) :=
  select (cmpi .slt i (broadcastInDim S8000000x2 ![] bcast_S_S8000000x2 (constantI S_ 32 0#32)))
    (addi i (broadcastInDim S8000000x2 ![] bcast_S_S8000000x2 (constantI S_ 32 2000000#32))) i

/-- Formula 0's atoms: the table row, flattened, gathered at the wrapped words (each given a unit index axis). -/
def atoms0 (x : (⟨S1x2000000, .f32⟩ : BufTy).Contents (Elt F)) (i : (⟨S8000000x2, .i32⟩ : BufTy).Contents (Elt F)) : (⟨S8000000x2, .f32⟩ : BufTy).Contents (Elt F) :=
  Host.gather gather_S2000000_S8000000x2x1_S8000000x2_n_0_n_n_0_2_1 (shapeCast S2000000 x shapeCasts_S1x2000000_S2000000)
    (broadcastInDim S8000000x2x1 ![0, 1] bcast_S8000000x2_S8000000x2x1_0_1 (wrapped0 i))

/-- Formula 0's literals: where the position's sign word is positive the atom, elsewhere one minus the atom. -/
def lits0 (x : (⟨S1x2000000, .f32⟩ : BufTy).Contents (Elt F)) (i : (⟨S8000000x2, .i32⟩ : BufTy).Contents (Elt F)) : (⟨S8000000x2, .f32⟩ : BufTy).Contents (Elt F) :=
  select (broadcastInDim S8000000x2 ![1] bcast_S2_S8000000x2_1
      (cmpi .sgt (fun j => lit0 (S2.rowMajor j)) (broadcastInDim S2 ![] bcast_S_S2 (constantI S_ 32 0#32))))
    (atoms0 x i)
    (subf (broadcastInDim S8000000x2 ![] bcast_S_S8000000x2 (constant S_ .f32 0x3F800000#32)) (atoms0 x i))

/-- Formula 0's clause values: the smaller of one and the literals' sum along the clause. -/
def clauses0 (x : (⟨S1x2000000, .f32⟩ : BufTy).Contents (Elt F)) (i : (⟨S8000000x2, .i32⟩ : BufTy).Contents (Elt F)) : (⟨S8000000, .f32⟩ : BufTy).Contents (Elt F) :=
  minimumf (broadcastInDim S8000000 ![] bcast_S_S8000000 (constant S_ .f32 0x3F800000#32))
    (Host.reduceAdd (lits0 x i) (constant S_ .f32 0x00000000#32) reducesTo_S8000000x2_S8000000_d1 h_S_)

/-- Formula 1's grounding words with a negative word counted from the end of the table (the table length added). -/
def wrapped1 (i : (⟨S6000000x3, .i32⟩ : BufTy).Contents (Elt F)) : (⟨S6000000x3, .i32⟩ : BufTy).Contents (Elt F) :=
  select (cmpi .slt i (broadcastInDim S6000000x3 ![] bcast_S_S6000000x3 (constantI S_ 32 0#32)))
    (addi i (broadcastInDim S6000000x3 ![] bcast_S_S6000000x3 (constantI S_ 32 2000000#32))) i

/-- Formula 1's atoms: the table row, flattened, gathered at the wrapped words (each given a unit index axis). -/
def atoms1 (x : (⟨S1x2000000, .f32⟩ : BufTy).Contents (Elt F)) (i : (⟨S6000000x3, .i32⟩ : BufTy).Contents (Elt F)) : (⟨S6000000x3, .f32⟩ : BufTy).Contents (Elt F) :=
  Host.gather gather_S2000000_S6000000x3x1_S6000000x3_n_0_n_n_0_2_1 (shapeCast S2000000 x shapeCasts_S1x2000000_S2000000)
    (broadcastInDim S6000000x3x1 ![0, 1] bcast_S6000000x3_S6000000x3x1_0_1 (wrapped1 i))

/-- Formula 1's literals: where the position's sign word is positive the atom, elsewhere one minus the atom. -/
def lits1 (x : (⟨S1x2000000, .f32⟩ : BufTy).Contents (Elt F)) (i : (⟨S6000000x3, .i32⟩ : BufTy).Contents (Elt F)) : (⟨S6000000x3, .f32⟩ : BufTy).Contents (Elt F) :=
  select (broadcastInDim S6000000x3 ![1] bcast_S3_S6000000x3_1
      (cmpi .sgt (fun j => lit1 (S3.rowMajor j)) (broadcastInDim S3 ![] bcast_S_S3 (constantI S_ 32 0#32))))
    (atoms1 x i)
    (subf (broadcastInDim S6000000x3 ![] bcast_S_S6000000x3 (constant S_ .f32 0x3F800000#32)) (atoms1 x i))

/-- Formula 1's clause values: the smaller of one and the literals' sum along the clause. -/
def clauses1 (x : (⟨S1x2000000, .f32⟩ : BufTy).Contents (Elt F)) (i : (⟨S6000000x3, .i32⟩ : BufTy).Contents (Elt F)) : (⟨S6000000, .f32⟩ : BufTy).Contents (Elt F) :=
  minimumf (broadcastInDim S6000000 ![] bcast_S_S6000000 (constant S_ .f32 0x3F800000#32))
    (Host.reduceAdd (lits1 x i) (constant S_ .f32 0x00000000#32) reducesTo_S6000000x3_S6000000_d1 h_S_)

/-- Formula 2's grounding words with a negative word counted from the end of the table (the table length added). -/
def wrapped2 (i : (⟨S4000000x4, .i32⟩ : BufTy).Contents (Elt F)) : (⟨S4000000x4, .i32⟩ : BufTy).Contents (Elt F) :=
  select (cmpi .slt i (broadcastInDim S4000000x4 ![] bcast_S_S4000000x4 (constantI S_ 32 0#32)))
    (addi i (broadcastInDim S4000000x4 ![] bcast_S_S4000000x4 (constantI S_ 32 2000000#32))) i

/-- Formula 2's atoms: the table row, flattened, gathered at the wrapped words (each given a unit index axis). -/
def atoms2 (x : (⟨S1x2000000, .f32⟩ : BufTy).Contents (Elt F)) (i : (⟨S4000000x4, .i32⟩ : BufTy).Contents (Elt F)) : (⟨S4000000x4, .f32⟩ : BufTy).Contents (Elt F) :=
  Host.gather gather_S2000000_S4000000x4x1_S4000000x4_n_0_n_n_0_2_1 (shapeCast S2000000 x shapeCasts_S1x2000000_S2000000)
    (broadcastInDim S4000000x4x1 ![0, 1] bcast_S4000000x4_S4000000x4x1_0_1 (wrapped2 i))

/-- Formula 2's literals: where the position's sign word is positive the atom, elsewhere one minus the atom. -/
def lits2 (x : (⟨S1x2000000, .f32⟩ : BufTy).Contents (Elt F)) (i : (⟨S4000000x4, .i32⟩ : BufTy).Contents (Elt F)) : (⟨S4000000x4, .f32⟩ : BufTy).Contents (Elt F) :=
  select (broadcastInDim S4000000x4 ![1] bcast_S4_S4000000x4_1
      (cmpi .sgt (fun j => lit2 (S4.rowMajor j)) (broadcastInDim S4 ![] bcast_S_S4 (constantI S_ 32 0#32))))
    (atoms2 x i)
    (subf (broadcastInDim S4000000x4 ![] bcast_S_S4000000x4 (constant S_ .f32 0x3F800000#32)) (atoms2 x i))

/-- Formula 2's clause values: the smaller of one and the literals' sum along the clause. -/
def clauses2 (x : (⟨S1x2000000, .f32⟩ : BufTy).Contents (Elt F)) (i : (⟨S4000000x4, .i32⟩ : BufTy).Contents (Elt F)) : (⟨S4000000, .f32⟩ : BufTy).Contents (Elt F) :=
  minimumf (broadcastInDim S4000000 ![] bcast_S_S4000000 (constant S_ .f32 0x3F800000#32))
    (Host.reduceAdd (lits2 x i) (constant S_ .f32 0x00000000#32) reducesTo_S4000000x4_S4000000_d1 h_S_)

/-- THE REFERENCE'S RESULT as a function of its four arguments: the three clause vectors one after the other, with a
    leading unit axis. -/
def refOut (x : (⟨S1x2000000, .f32⟩ : BufTy).Contents (Elt F)) (i0 : (⟨S8000000x2, .i32⟩ : BufTy).Contents (Elt F)) (i1 : (⟨S6000000x3, .i32⟩ : BufTy).Contents (Elt F))
    (i2 : (⟨S4000000x4, .i32⟩ : BufTy).Contents (Elt F)) : (⟨S1x18000000, .f32⟩ : BufTy).Contents (Elt F) :=
  broadcastInDim S1x18000000 ![1] bcast_S18000000_S1x18000000_1
    (concatenate S18000000 0 [⟨S8000000, clauses0 x i0⟩, ⟨S6000000, clauses1 x i1⟩, ⟨S4000000, clauses2 x i2⟩]
      concatenates_S8000000_S6000000_S4000000_S18000000_d0)

/-! ## The run -/

set_option maxRecDepth 8192 in
set_option maxHeartbeats 28800000 in
/-- The result buffer after the operations, from any contents: the composed term of the four arguments' contents.
    Each operation's result is read at its own buffer and every other buffer is left as it was (the buffers are
    pairwise different); what remains is the typed references' transport, the identity at these literal buffers. -/
theorem out_eq (V : Valuation τ sig (Elt F)) :
    after ops V (main_v47 : DevRef τ sig)
      = refOut (V (main_arg0 : DevRef τ sig)) (V (main_arg1 : DevRef τ sig)) (V (main_arg2 : DevRef τ sig))
          (V (main_arg3 : DevRef τ sig)) := by
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 28800000 in
/-- No operation writes an argument's buffer. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig) := by
  refine ⟨?_, ?_, ?_, ?_⟩ <;>
  simp (disch := decide) only [after_cons, after_nil,
      nullary_result', unary_result', binary_result', ternary_result', reshape_result', nary3_result',
      nullary_result_ne', unary_result_ne', binary_result_ne', ternary_result_ne', reshape_result_ne', nary_result_ne']

/-- On every device, for any float values, from any memory with zero counters: every weakly fair execution of the
    entry function terminates with the result buffer at `refOut` of the four arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (out_eq (launchContents m c)),
      (h c main_arg0).trans (args_eq (launchContents m c)).1,
      (h c main_arg1).trans (args_eq (launchContents m c)).2.1,
      (h c main_arg2).trans (args_eq (launchContents m c)).2.2.1,
      (h c main_arg3).trans (args_eq (launchContents m c)).2.2.2⟩)
    (run_seq scopedRefs_eq scopedSems_eq defs main (fun _ => ops) main_eq (fun _ => ops_sub) m ρ)

end Cert.ReferenceIdeal.RefRun

end
-- ==== Proof.RefValue.lean ====
/-
  The reference's composed term is the specification.

  Read at a result position, the reference's term is: the smaller of one and the sum, over the clause's positions, of the
  literal there — the gathered atom where the position's sign word is positive, one minus it elsewhere — where the
  gathered atom is the table entry at the grounding word, a negative word counted from the end of the table and the
  result clamped into the table. That is the clause value of the specification, formula by formula; the three clause
  vectors laid one after the other, under a leading unit axis, are the specification's result row.
-/
import proofs.«173380_j75831942578505_1_alg».proof.Proof.RefRun
import proofs.«173380_j75831942578505_1_alg».proof.Proof.Clause
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem

/-! ## Three reads shared by the formulas -/

/-- An index array given a trailing unit axis, read at `[t, j, 0]`, is the array at `(t, j)`. -/
theorem unitAxis_apply {R C : ℕ} {α : Type}
    (h : (⟨2, ![R, C]⟩ : Shape).BroadcastsInDim ⟨3, ![R, C, 1]⟩ ![0, 1])
    (w : (⟨2, ![R, C]⟩ : Shape).Idx → α) (y : (⟨2, ![R, C]⟩ : Shape).Idx) :
    broadcastInDim ⟨3, ![R, C, 1]⟩ ![0, 1] h w (takeIdx y) = w y := by
  refine broadcastInDim_apply _ h w (takeIdx y) y ?_
  intro a
  match a with
  | ⟨0, _⟩ =>
    show (y 0).val = if R = 1 then 0 else (y 0).val
    split
    · have := idx2_lt0 y; omega
    · rfl
  | ⟨1, _⟩ =>
    show (y 1).val = if C = 1 then 0 else (y 1).val
    split
    · have := idx2_lt1 y; omega
    · rfl

/-- The one-row table flattened, read at `p`, is the row's entry `p`. -/
theorem flat_apply (x : (⟨2, ![1, 2000000]⟩ : Shape).Idx → EReal)
    (h : (⟨2, ![1, 2000000]⟩ : Shape).ShapeCasts ⟨1, ![2000000]⟩) (p : Fin 2000000) :
    shapeCast ⟨1, ![2000000]⟩ x h (ix1 p) = x (ix2 0 p) := by
  refine shapeCast_apply x h (ix1 p) (ix2 0 p) ?_
  rw [Shape.rowMajor_val_two, Shape.rowMajor_val_one]
  show 0 * 2000000 + p.val = p.val
  omega

/-- A literal from its sign bit: the atom at bit one, one minus the atom at bit zero. -/
theorem lit_of_bit (p : Bool) (g : EReal) :
    Scalar.select (if p then 1#1 else 0#1) g (Ideal.ofBits .f32 0x3F800000#32 - g) = Cert.Clause.lit p g := by
  cases p
  · rw [if_neg (by decide), select_zero, Cert.Clause.bits_one]; rfl
  · rw [if_pos rfl, select_one]; rfl

/-! ## Formula 0 -/

/-- The wrapped word at a position is the specification's reading of the grounding word there. -/
theorem wrapped0_apply (i : (⟨2, ![8000000, 2]⟩ : Shape).Idx → BitVec 32) (J : (⟨2, ![8000000, 2]⟩ : Shape).Idx) :
    wrapped0 (F := Ideal) i J = Cert.Clause.wrap (i J) := rfl

/-- The gathered atom at clique `q`, position `j`: the table entry the grounding word there picks. -/
theorem atoms0_apply (x : (⟨2, ![1, 2000000]⟩ : Shape).Idx → EReal) (i : (⟨2, ![8000000, 2]⟩ : Shape).Idx → BitVec 32) (q : Fin 8000000) (j : Fin 2) :
    atoms0 (F := Ideal) x i (ix2 q j) = Cert.Clause.atom x (i (ix2 q j)) := by
  unfold atoms0
  refine (gather_take_apply (N := 2000000) (R := 8000000) (C := 2) (by decide) gather_S2000000_S8000000x2x1_S8000000x2_n_0_n_n_0_2_1_wf _ _ (ix2 q j)).trans ?_
  refine Eq.trans (congrArg (fun p => shapeCast S2000000 x shapeCasts_S1x2000000_S2000000 (ix1 p)) (Fin.ext ?_))
    (flat_apply x _ (Cert.Clause.pos (i (ix2 q j))))
  show min (broadcastInDim S8000000x2x1 ![0, 1] bcast_S8000000x2_S8000000x2x1_0_1 (wrapped0 (F := Ideal) i) (takeIdx (ix2 q j))).toInt.toNat (2000000 - 1)
    = min (Cert.Clause.wrap (i (ix2 q j))).toInt.toNat (2000000 - 1)
  rw [unitAxis_apply, wrapped0_apply]

/-- The sign bit at position `j`: one where the position's sign word is positive. -/
theorem signBit0_apply (q : Fin 8000000) (j : Fin 2) :
    broadcastInDim S8000000x2 ![1] bcast_S2_S8000000x2_1
        (cmpi .sgt (fun t => lit0 (S2.rowMajor t)) (broadcastInDim S2 ![] bcast_S_S2 (constantI S_ 32 0#32))) (ix2 q j)
      = if Cert.Clause.sg0 j then 1#1 else 0#1 := by
  rw [broadcastInDim_apply _ _ _ (ix2 q j) (ix1 j) (by intro a; match a with | ⟨0, _⟩ => rfl)]
  fin_cases j <;> decide

/-- The literal at clique `q`, position `j`. -/
theorem lits0_apply (x : (⟨2, ![1, 2000000]⟩ : Shape).Idx → EReal) (i : (⟨2, ![8000000, 2]⟩ : Shape).Idx → BitVec 32) (q : Fin 8000000) (j : Fin 2) :
    lits0 (F := Ideal) x i (ix2 q j) = Cert.Clause.lit (Cert.Clause.sg0 j) (Cert.Clause.atom x (i (ix2 q j))) := by
  unfold lits0
  rw [select_apply, signBit0_apply, subf_apply, atoms0_apply]
  exact lit_of_bit _ _

/-- The clause value at clique `q`: the specification's. The sum along the clause starts from zero and runs over the
    positions `(q, k)`. -/
theorem clauses0_apply (x : (⟨2, ![1, 2000000]⟩ : Shape).Idx → EReal) (i : (⟨2, ![8000000, 2]⟩ : Shape).Idx → BitVec 32) (q : Fin 8000000) :
    clauses0 (F := Ideal) x i (ix1 q) = Cert.Clause.clauseAt Cert.Clause.sg0 x i q := by
  have hR : S8000000x2.Reduces [1] S8000000 := by decide
  have hl : ∀ k : Fin (S8000000x2.size 1), hR.lift (ix1 q) k = ix2 q k := fun k =>
    funext fun c => match c with | ⟨0, _⟩ => rfl | ⟨1, _⟩ => rfl
  have hs : (∑ k : Fin (S8000000x2.size 1), lits0 (F := Ideal) x i (hR.lift (ix1 q) k))
      = ∑ k : Fin 2, Cert.Clause.lit (Cert.Clause.sg0 k) (Cert.Clause.atom x (i (ix2 q k))) :=
    Finset.sum_congr rfl fun k _ => by rw [hl k]; exact lits0_apply x i q k
  unfold clauses0
  rw [minimumf_apply, hostReduceAdd_apply, Ideal.hostReduceAdd_single reducesTo_S8000000x2_S8000000_d1 hR, hs]
  show min (Ideal.ofBits .f32 0x3F800000#32) (Ideal.ofBits .f32 0x00000000#32 + _) = _
  rw [Cert.Clause.bits_one, Ideal.ofBits_zero_f32, zero_add]
  rfl

/-! ## Formula 1 -/

/-- The wrapped word at a position is the specification's reading of the grounding word there. -/
theorem wrapped1_apply (i : (⟨2, ![6000000, 3]⟩ : Shape).Idx → BitVec 32) (J : (⟨2, ![6000000, 3]⟩ : Shape).Idx) :
    wrapped1 (F := Ideal) i J = Cert.Clause.wrap (i J) := rfl

/-- The gathered atom at clique `q`, position `j`: the table entry the grounding word there picks. -/
theorem atoms1_apply (x : (⟨2, ![1, 2000000]⟩ : Shape).Idx → EReal) (i : (⟨2, ![6000000, 3]⟩ : Shape).Idx → BitVec 32) (q : Fin 6000000) (j : Fin 3) :
    atoms1 (F := Ideal) x i (ix2 q j) = Cert.Clause.atom x (i (ix2 q j)) := by
  unfold atoms1
  refine (gather_take_apply (N := 2000000) (R := 6000000) (C := 3) (by decide) gather_S2000000_S6000000x3x1_S6000000x3_n_0_n_n_0_2_1_wf _ _ (ix2 q j)).trans ?_
  refine Eq.trans (congrArg (fun p => shapeCast S2000000 x shapeCasts_S1x2000000_S2000000 (ix1 p)) (Fin.ext ?_))
    (flat_apply x _ (Cert.Clause.pos (i (ix2 q j))))
  show min (broadcastInDim S6000000x3x1 ![0, 1] bcast_S6000000x3_S6000000x3x1_0_1 (wrapped1 (F := Ideal) i) (takeIdx (ix2 q j))).toInt.toNat (2000000 - 1)
    = min (Cert.Clause.wrap (i (ix2 q j))).toInt.toNat (2000000 - 1)
  rw [unitAxis_apply, wrapped1_apply]

/-- The sign bit at position `j`: one where the position's sign word is positive. -/
theorem signBit1_apply (q : Fin 6000000) (j : Fin 3) :
    broadcastInDim S6000000x3 ![1] bcast_S3_S6000000x3_1
        (cmpi .sgt (fun t => lit1 (S3.rowMajor t)) (broadcastInDim S3 ![] bcast_S_S3 (constantI S_ 32 0#32))) (ix2 q j)
      = if Cert.Clause.sg1 j then 1#1 else 0#1 := by
  rw [broadcastInDim_apply _ _ _ (ix2 q j) (ix1 j) (by intro a; match a with | ⟨0, _⟩ => rfl)]
  fin_cases j <;> decide

/-- The literal at clique `q`, position `j`. -/
theorem lits1_apply (x : (⟨2, ![1, 2000000]⟩ : Shape).Idx → EReal) (i : (⟨2, ![6000000, 3]⟩ : Shape).Idx → BitVec 32) (q : Fin 6000000) (j : Fin 3) :
    lits1 (F := Ideal) x i (ix2 q j) = Cert.Clause.lit (Cert.Clause.sg1 j) (Cert.Clause.atom x (i (ix2 q j))) := by
  unfold lits1
  rw [select_apply, signBit1_apply, subf_apply, atoms1_apply]
  exact lit_of_bit _ _

/-- The clause value at clique `q`: the specification's. The sum along the clause starts from zero and runs over the
    positions `(q, k)`. -/
theorem clauses1_apply (x : (⟨2, ![1, 2000000]⟩ : Shape).Idx → EReal) (i : (⟨2, ![6000000, 3]⟩ : Shape).Idx → BitVec 32) (q : Fin 6000000) :
    clauses1 (F := Ideal) x i (ix1 q) = Cert.Clause.clauseAt Cert.Clause.sg1 x i q := by
  have hR : S6000000x3.Reduces [1] S6000000 := by decide
  have hl : ∀ k : Fin (S6000000x3.size 1), hR.lift (ix1 q) k = ix2 q k := fun k =>
    funext fun c => match c with | ⟨0, _⟩ => rfl | ⟨1, _⟩ => rfl
  have hs : (∑ k : Fin (S6000000x3.size 1), lits1 (F := Ideal) x i (hR.lift (ix1 q) k))
      = ∑ k : Fin 3, Cert.Clause.lit (Cert.Clause.sg1 k) (Cert.Clause.atom x (i (ix2 q k))) :=
    Finset.sum_congr rfl fun k _ => by rw [hl k]; exact lits1_apply x i q k
  unfold clauses1
  rw [minimumf_apply, hostReduceAdd_apply, Ideal.hostReduceAdd_single reducesTo_S6000000x3_S6000000_d1 hR, hs]
  show min (Ideal.ofBits .f32 0x3F800000#32) (Ideal.ofBits .f32 0x00000000#32 + _) = _
  rw [Cert.Clause.bits_one, Ideal.ofBits_zero_f32, zero_add]
  rfl

/-! ## Formula 2 -/

/-- The wrapped word at a position is the specification's reading of the grounding word there. -/
theorem wrapped2_apply (i : (⟨2, ![4000000, 4]⟩ : Shape).Idx → BitVec 32) (J : (⟨2, ![4000000, 4]⟩ : Shape).Idx) :
    wrapped2 (F := Ideal) i J = Cert.Clause.wrap (i J) := rfl

/-- The gathered atom at clique `q`, position `j`: the table entry the grounding word there picks. -/
theorem atoms2_apply (x : (⟨2, ![1, 2000000]⟩ : Shape).Idx → EReal) (i : (⟨2, ![4000000, 4]⟩ : Shape).Idx → BitVec 32) (q : Fin 4000000) (j : Fin 4) :
    atoms2 (F := Ideal) x i (ix2 q j) = Cert.Clause.atom x (i (ix2 q j)) := by
  unfold atoms2
  refine (gather_take_apply (N := 2000000) (R := 4000000) (C := 4) (by decide) gather_S2000000_S4000000x4x1_S4000000x4_n_0_n_n_0_2_1_wf _ _ (ix2 q j)).trans ?_
  refine Eq.trans (congrArg (fun p => shapeCast S2000000 x shapeCasts_S1x2000000_S2000000 (ix1 p)) (Fin.ext ?_))
    (flat_apply x _ (Cert.Clause.pos (i (ix2 q j))))
  show min (broadcastInDim S4000000x4x1 ![0, 1] bcast_S4000000x4_S4000000x4x1_0_1 (wrapped2 (F := Ideal) i) (takeIdx (ix2 q j))).toInt.toNat (2000000 - 1)
    = min (Cert.Clause.wrap (i (ix2 q j))).toInt.toNat (2000000 - 1)
  rw [unitAxis_apply, wrapped2_apply]

/-- The sign bit at position `j`: one where the position's sign word is positive. -/
theorem signBit2_apply (q : Fin 4000000) (j : Fin 4) :
    broadcastInDim S4000000x4 ![1] bcast_S4_S4000000x4_1
        (cmpi .sgt (fun t => lit2 (S4.rowMajor t)) (broadcastInDim S4 ![] bcast_S_S4 (constantI S_ 32 0#32))) (ix2 q j)
      = if Cert.Clause.sg2 j then 1#1 else 0#1 := by
  rw [broadcastInDim_apply _ _ _ (ix2 q j) (ix1 j) (by intro a; match a with | ⟨0, _⟩ => rfl)]
  fin_cases j <;> decide

/-- The literal at clique `q`, position `j`. -/
theorem lits2_apply (x : (⟨2, ![1, 2000000]⟩ : Shape).Idx → EReal) (i : (⟨2, ![4000000, 4]⟩ : Shape).Idx → BitVec 32) (q : Fin 4000000) (j : Fin 4) :
    lits2 (F := Ideal) x i (ix2 q j) = Cert.Clause.lit (Cert.Clause.sg2 j) (Cert.Clause.atom x (i (ix2 q j))) := by
  unfold lits2
  rw [select_apply, signBit2_apply, subf_apply, atoms2_apply]
  exact lit_of_bit _ _

/-- The clause value at clique `q`: the specification's. The sum along the clause starts from zero and runs over the
    positions `(q, k)`. -/
theorem clauses2_apply (x : (⟨2, ![1, 2000000]⟩ : Shape).Idx → EReal) (i : (⟨2, ![4000000, 4]⟩ : Shape).Idx → BitVec 32) (q : Fin 4000000) :
    clauses2 (F := Ideal) x i (ix1 q) = Cert.Clause.clauseAt Cert.Clause.sg2 x i q := by
  have hR : S4000000x4.Reduces [1] S4000000 := by decide
  have hl : ∀ k : Fin (S4000000x4.size 1), hR.lift (ix1 q) k = ix2 q k := fun k =>
    funext fun c => match c with | ⟨0, _⟩ => rfl | ⟨1, _⟩ => rfl
  have hs : (∑ k : Fin (S4000000x4.size 1), lits2 (F := Ideal) x i (hR.lift (ix1 q) k))
      = ∑ k : Fin 4, Cert.Clause.lit (Cert.Clause.sg2 k) (Cert.Clause.atom x (i (ix2 q k))) :=
    Finset.sum_congr rfl fun k _ => by rw [hl k]; exact lits2_apply x i q k
  unfold clauses2
  rw [minimumf_apply, hostReduceAdd_apply, Ideal.hostReduceAdd_single reducesTo_S4000000x4_S4000000_d1 hR, hs]
  show min (Ideal.ofBits .f32 0x3F800000#32) (Ideal.ofBits .f32 0x00000000#32 + _) = _
  rw [Cert.Clause.bits_one, Ideal.ofBits_zero_f32, zero_add]
  rfl

/-! ## The result row -/

/-- The leading unit axis is read through: the row at `J` is the laid-out vector at `J`'s second coordinate. -/
theorem row_apply (v : (⟨1, ![18000000]⟩ : Shape).Idx → EReal) (J : (⟨2, ![1, 18000000]⟩ : Shape).Idx) :
    broadcastInDim S1x18000000 ![1] bcast_S18000000_S1x18000000_1 v J = v (ix1 (J 1)) :=
  broadcastInDim_apply (s := S18000000) (t := S1x18000000) ![1] bcast_S18000000_S1x18000000_1 v J (ix1 (J 1))
    (by intro a; match a with | ⟨0, _⟩ => rfl)

/-- Below 8,000,000 the laid-out vector is the first formula's. -/
theorem cat_lo (x : (⟨2, ![1, 2000000]⟩ : Shape).Idx → EReal) (i0 : (⟨2, ![8000000, 2]⟩ : Shape).Idx → BitVec 32) (i1 : (⟨2, ![6000000, 3]⟩ : Shape).Idx → BitVec 32) (i2 : (⟨2, ![4000000, 4]⟩ : Shape).Idx → BitVec 32) (p : Fin 18000000) (h0 : p.val < 8000000) :
    concatenate S18000000 0 [⟨S8000000, clauses0 (F := Ideal) x i0⟩, ⟨S6000000, clauses1 (F := Ideal) x i1⟩, ⟨S4000000, clauses2 (F := Ideal) x i2⟩]
        concatenates_S8000000_S6000000_S4000000_S18000000_d0 (ix1 p) = Cert.Clause.clauseAt Cert.Clause.sg0 x i0 ⟨p.val, h0⟩ := by
  refine (concatenate_apply_piece (0 : Fin S18000000.rank) _ _ (ix1 p) 0 (by simp) S8000000 (clauses0 (F := Ideal) x i0) rfl rfl 0 rfl
    (ix1 ⟨p.val, h0⟩) (fun b hb => (hb (Fin.ext (by show b.val = 0; exact Nat.lt_one_iff.mp b.isLt))).elim) (Nat.zero_add _)).trans ?_
  exact clauses0_apply x i0 ⟨p.val, h0⟩

/-- From 8,000,000 and below 14,000,000 it is the second formula's, at `p - 8,000,000`. -/
theorem cat_mid (x : (⟨2, ![1, 2000000]⟩ : Shape).Idx → EReal) (i0 : (⟨2, ![8000000, 2]⟩ : Shape).Idx → BitVec 32) (i1 : (⟨2, ![6000000, 3]⟩ : Shape).Idx → BitVec 32) (i2 : (⟨2, ![4000000, 4]⟩ : Shape).Idx → BitVec 32) (p : Fin 18000000) (q : Fin 6000000) (hq : 8000000 + q.val = p.val) :
    concatenate S18000000 0 [⟨S8000000, clauses0 (F := Ideal) x i0⟩, ⟨S6000000, clauses1 (F := Ideal) x i1⟩, ⟨S4000000, clauses2 (F := Ideal) x i2⟩]
        concatenates_S8000000_S6000000_S4000000_S18000000_d0 (ix1 p) = Cert.Clause.clauseAt Cert.Clause.sg1 x i1 q := by
  refine (concatenate_apply_piece (0 : Fin S18000000.rank) _ _ (ix1 p) 1 (by simp) S6000000 (clauses1 (F := Ideal) x i1) rfl rfl 8000000 rfl
    (ix1 q) (fun b hb => (hb (Fin.ext (by show b.val = 0; exact Nat.lt_one_iff.mp b.isLt))).elim) hq).trans ?_
  exact clauses1_apply x i1 q

/-- From 14,000,000 on it is the third formula's, at `p - 14,000,000`. -/
theorem cat_hi (x : (⟨2, ![1, 2000000]⟩ : Shape).Idx → EReal) (i0 : (⟨2, ![8000000, 2]⟩ : Shape).Idx → BitVec 32) (i1 : (⟨2, ![6000000, 3]⟩ : Shape).Idx → BitVec 32) (i2 : (⟨2, ![4000000, 4]⟩ : Shape).Idx → BitVec 32) (p : Fin 18000000) (q : Fin 4000000) (hq : 14000000 + q.val = p.val) :
    concatenate S18000000 0 [⟨S8000000, clauses0 (F := Ideal) x i0⟩, ⟨S6000000, clauses1 (F := Ideal) x i1⟩, ⟨S4000000, clauses2 (F := Ideal) x i2⟩]
        concatenates_S8000000_S6000000_S4000000_S18000000_d0 (ix1 p) = Cert.Clause.clauseAt Cert.Clause.sg2 x i2 q := by
  refine (concatenate_apply_piece (0 : Fin S18000000.rank) _ _ (ix1 p) 2 (by simp) S4000000 (clauses2 (F := Ideal) x i2) rfl rfl 14000000 (by simp)
    (ix1 q) (fun b hb => (hb (Fin.ext (by show b.val = 0; exact Nat.lt_one_iff.mp b.isLt))).elim) hq).trans ?_
  exact clauses2_apply x i2 q

/-- THE REFERENCE'S TERM IS THE SPECIFICATION. At a row position the leading unit axis is read through; the position
    falls in exactly one of the three laid-out clause vectors, and that vector's entry is the formula's clause value. -/
theorem refOut_eq (x : (⟨2, ![1, 2000000]⟩ : Shape).Idx → EReal) (i0 : (⟨2, ![8000000, 2]⟩ : Shape).Idx → BitVec 32) (i1 : (⟨2, ![6000000, 3]⟩ : Shape).Idx → BitVec 32) (i2 : (⟨2, ![4000000, 4]⟩ : Shape).Idx → BitVec 32) :
    refOut (F := Ideal) x i0 i1 i2 = Cert.Clause.out x i0 i1 i2 := by
  refine funext fun (J : (⟨2, ![1, 18000000]⟩ : Shape).Idx) => ?_
  unfold refOut Cert.Clause.out
  refine (row_apply _ J).trans ?_
  by_cases h0 : (J 1).val < 8000000
  · rw [dif_pos h0]
    exact cat_lo x i0 i1 i2 (J 1) h0
  · rw [dif_neg h0]
    by_cases h1 : (J 1).val < 14000000
    · rw [dif_pos h1]
      exact cat_mid x i0 i1 i2 (J 1) ⟨(J 1).val - 8000000, by omega⟩ (by show 8000000 + ((J 1).val - 8000000) = (J 1).val; omega)
    · rw [dif_neg h1]
      have hJ : (J 1).val < 18000000 := idx2_lt1 J
      exact cat_hi x i0 i1 i2 (J 1) ⟨(J 1).val - 14000000, by omega⟩ (by show 14000000 + ((J 1).val - 14000000) = (J 1).val; omega)

/-! ## The reference's run, against the specification -/

/-- At the exact-arithmetic reading of the floats, from any memory with zero counters: every weakly fair execution of
    the reference terminates with its result buffer at the specification's result row of the four arguments' launch
    contents, and the arguments unchanged. -/
theorem run_out (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v47)
            = Cert.Clause.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (refOut_eq _ _ _ _), (h c).2⟩)
    (Cert.ReferenceIdeal.RefRun.run (F := Ideal) m ρ)

end Cert.ReferenceIdeal.RefValue

end
-- ==== Proof.lean ====
/-
  Łukasiewicz clause evaluation of three grounded formulas over a table of atom values: a Pallas kernel program against
  its jnp reference, equal over the extended reals.

  Both programs read a one-row table `x` of 2,000,000 atom values at three arrays of grounding index words (numpy's
  reading of a negative word, then the gather's clamp into the table), turn each picked value `g` into a literal — `g` at
  a positive position of the clause, `1 - g` at a negated one —, add the literals of a clique and cap the sum at `1`. The
  result row lists the 8,000,000 + 6,000,000 + 4,000,000 clause values, formula after formula (`Cert.Clause.out`).
  * The kernel program gathers with the indices transposed, so that a clique is a COLUMN; one pallas_call per formula
    evaluates column blocks over a grid of 25 points, spelling the literal as `1/2 + s·(g - 1/2)` with a sign column
    `s = ±1`, summing down the column and capping; the three rows are concatenated. Its run through the seven items
    (host stretch, call, host stretch, call, host stretch, call, concatenation) is `Cert.KernelIdeal.Run.run_all`; read at the
    result it is the specification (`Cert.KernelIdeal.Out.run_out`).
  * The reference gathers row-wise, selects `g` or `1 - g` by the sign table, sums along the row, caps, concatenates
    and adds the leading unit axis: `Cert.ReferenceIdeal.RefValue.run_out`.
  * The one algebraic law between them, `1/2 + s·(g - 1/2) = literal`, holds on every extended real, so the finiteness
    precondition is never opened.
  The frames are the runs with the result dropped; the ideal pass rewrote nothing, so `preserves` is trivial.
-/
import proofs.«173380_j75831942578505_1_alg».proof.Defs
import proofs.«173380_j75831942578505_1_alg».proof.Proof.Gen.Kernel
import proofs.«173380_j75831942578505_1_alg».proof.Proof.Gen.KernelIdeal
import proofs.«173380_j75831942578505_1_alg».proof.Proof.Gen.ReferenceIdeal
import proofs.«173380_j75831942578505_1_alg».proof.Proof.Gen.Pre_finite_inputs
import proofs.«173380_j75831942578505_1_alg».proof.Proof.KernelRun
import proofs.«173380_j75831942578505_1_alg».proof.Proof.KernelIdealOut
import proofs.«173380_j75831942578505_1_alg».proof.Proof.RefValue

noncomputable section

namespace Cert.Proof

open Idealize.ShloMosaic Idealize.SL.Sem

/-- The word-level kernel program runs to the end, faults nowhere and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.run_out m ρ)

/-- The ideal pass rewrote no operation. -/
theorem preserves : Cert.preserves_Kernel_KernelIdeal := trivial

/-- From memories agreeing on the arguments both idealized programs end with the same result row: the specification of
    the argument arrays. -/
theorem algebraic : Cert.algebraic_KernelIdeal_ReferenceIdeal := by
  intro m ρ m' ρ' _ hagree
  refine ⟨_, Cert.KernelIdeal.Out.run_out m ρ, ?_⟩
  refine (θ_run Cert.ReferenceIdeal.defs _ _).mono (fun _ h c => ⟨(h c).1.trans ?_, (h c).2⟩) (Cert.ReferenceIdeal.RefValue.run_out m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
